-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x5 : Shape := ⟨3, ![32, 2048, 5]⟩
abbrev S128 : Shape := ⟨1, ![128]⟩
abbrev S5x128 : Shape := ⟨2, ![5, 128]⟩
abbrev S_ : Shape := ⟨0, ![]⟩

class Facts : Prop where
  bcast_S_S32x2048x5 : S_.BroadcastsInDim S32x2048x5 (![] : Fin 0 → Fin S32x2048x5.rank)
  reducesTo_S32x2048x5_S_d0_1_2 : S32x2048x5.ReducesTo [0, 1, 2] S_
  h_S_ : 0 < S_.numel
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg7 : FVec F S128 .f32) (main_arg8 : FVec F S128 .f32) (main_arg9 : FVec F S5x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S5x128 .f32 := Host.absf main_arg9
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S5x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S32x2048x5 .f32) (main_arg1 : FVec F S128 .f32) (main_arg2 : FVec F S128 .f32) (main_arg3 : FVec F S128 .f32) (main_arg4 : FVec F S128 .f32) (main_arg5 : FVec F S128 .f32) (main_arg6 : FVec F S128 .f32) (main_arg7 : FVec F S128 .f32) (main_arg8 : FVec F S128 .f32) (main_arg9 : FVec F S5x128 .f32) : IVec S_ 1 :=
  let main_v0 : FVec F S32x2048x5 .f32 := Host.absf main_arg0
  let main_cst : FVec F S_ .f32 := constant S_ .f32 0x7F800000#32
  let main_v1 : FVec F S32x2048x5 .f32 := broadcastInDim S32x2048x5 ![] bcast_S_S32x2048x5 main_cst
  let main_v2 : IVec S32x2048x5 1 := cmpf .olt main_v0 main_v1
  let main_c : IVec S_ 1 := constantI S_ 1 1#1
  let main_v3 : IVec S_ 1 := (fun x v => Host.reduce IntOp.andi x v reducesTo_S32x2048x5_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S32x2048x5 : Shape := ⟨3, ![32, 2048, 5]⟩
abbrev S128 : Shape := ⟨1, ![128]⟩
abbrev S5x128 : Shape := ⟨2, ![5, 128]⟩
abbrev S1x128 : Shape := ⟨2, ![1, 128]⟩
abbrev S128x1 : Shape := ⟨2, ![128, 1]⟩
abbrev S128x5 : Shape := ⟨2, ![128, 5]⟩
abbrev S5x5 : Shape := ⟨2, ![5, 5]⟩
abbrev S_ : Shape := ⟨0, ![]⟩
abbrev S5x128x1 : Shape := ⟨3, ![5, 128, 1]⟩
abbrev S5x1x5 : Shape := ⟨3, ![5, 1, 5]⟩
abbrev S5x128x5 : Shape := ⟨3, ![5, 128, 5]⟩
abbrev S5x640 : Shape := ⟨2, ![5, 640]⟩
abbrev S1x640 : Shape := ⟨2, ![1, 640]⟩
abbrev S2048x32x5 : Shape := ⟨3, ![2048, 32, 5]⟩
abbrev S32x2048x640 : Shape := ⟨3, ![32, 2048, 640]⟩
abbrev S1x2048x5 : Shape := ⟨3, ![1, 2048, 5]⟩
abbrev S1x2048x640 : Shape := ⟨3, ![1, 2048, 640]⟩
abbrev S2048x5 : Shape := ⟨2, ![2048, 5]⟩
abbrev S2048x640 : Shape := ⟨2, ![2048, 640]⟩

abbrev nBuf : Space → Nat
  | .hbm => 55
  | .vmem => 6
  | .smem => 0
  | _ => 0

abbrev bufTy : (tb : Table) → Fin (tcTables nBuf tb) → BufTy
  | .hbm, ⟨0, _⟩ => ⟨S32x2048x5, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S5x128, .f32⟩
  | .hbm, ⟨10, _⟩ => ⟨S1x128, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S128x5, .f32⟩
  | .hbm, ⟨31, _⟩ => ⟨S5x5, .i32⟩
  | .hbm, ⟨32, _⟩ => ⟨S5x5, .i32⟩
  | .hbm, ⟨33, _⟩ => ⟨S_, .i32⟩
  | .hbm, ⟨34, _⟩ => ⟨S5x5, .i32⟩
  | .hbm, ⟨35, _⟩ => ⟨S5x5, .i32⟩
  | .hbm, ⟨36, _⟩ => ⟨S5x5, .i1⟩
  | .hbm, ⟨37, _⟩ => ⟨S5x5, .f32⟩
  | .hbm, ⟨38, _⟩ => ⟨S5x128, .f32⟩
  | .hbm, ⟨39, _⟩ => ⟨S5x128x1, .f32⟩
  | .hbm, ⟨40, _⟩ => ⟨S5x1x5, .f32⟩
  | .hbm, ⟨41, _⟩ => ⟨S5x128x5, .f32⟩
  | .hbm, ⟨42, _⟩ => ⟨S5x128x5, .f32⟩
  | .hbm, ⟨43, _⟩ => ⟨S5x128x5, .f32⟩
  | .hbm, ⟨44, _⟩ => ⟨S5x640, .f32⟩
  | .hbm, ⟨45, _⟩ => ⟨S128x1, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x5, .f32⟩
  | .hbm, ⟨51, _⟩ => ⟨S1x640, .f32⟩
  | .hbm, ⟨52, _⟩ => ⟨S2048x32x5, .f32⟩
  | .hbm, ⟨53, _⟩ => ⟨S32x2048x5, .f32⟩
  | .hbm, ⟨54, _⟩ => ⟨S32x2048x640, .f32⟩
  | .local _ .vmem, ⟨0, _⟩ => ⟨S1x2048x5, .f32⟩
  | .local _ .vmem, ⟨1, _⟩ => ⟨S1x2048x5, .f32⟩
  | .local _ .vmem, ⟨2, _⟩ => ⟨S5x640, .f32⟩
  | .local _ .vmem, ⟨3, _⟩ => ⟨S1x640, .f32⟩
  | .local _ .vmem, ⟨4, _⟩ => ⟨S1x2048x640, .f32⟩
  | .local _ .vmem, ⟨5, _⟩ => ⟨S1x2048x640, .f32⟩
  | _, _ => ⟨S32x2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S5x128_S1x128_0_0 : S5x128.Slices ![0, 0] S1x128
  shapeCasts_S1x128_S128 : S1x128.ShapeCasts S128
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  bcast_S128_S128x1_0 : S128.BroadcastsInDim S128x1 (![0] : Fin 1 → Fin S128x1.rank)
  concatenates_S128x1_S128x1_S128x1_S128x1_S128x1_S128x5_d1 : Shape.Concatenates [S128x1, S128x1, S128x1, S128x1, S128x1] S128x5 1
  bcast_S_S5x5 : S_.BroadcastsInDim S5x5 (![] : Fin 0 → Fin S5x5.rank)
  transposes_S128x5_S5x128_1_0 : S128x5.Transposes [1, 0] S5x128
  bcast_S5x128_S5x128x1_0_1 : S5x128.BroadcastsInDim S5x128x1 (![0, 1] : Fin 2 → Fin S5x128x1.rank)
  bcast_S5x5_S5x1x5_0_2 : S5x5.BroadcastsInDim S5x1x5 (![0, 2] : Fin 2 → Fin S5x1x5.rank)
  bcast_S5x128x1_S5x128x5_0_1_2 : S5x128x1.BroadcastsInDim S5x128x5 (![0, 1, 2] : Fin 3 → Fin S5x128x5.rank)
  bcast_S5x1x5_S5x128x5_0_1_2 : S5x1x5.BroadcastsInDim S5x128x5 (![0, 1, 2] : Fin 3 → Fin S5x128x5.rank)
  shapeCasts_S5x128x5_S5x640 : S5x128x5.ShapeCasts S5x640
  shapeCasts_S128x5_S1x640 : S128x5.ShapeCasts S1x640
  transposes_S32x2048x5_S2048x32x5_1_0_2 : S32x2048x5.Transposes [1, 0, 2] S2048x32x5
  shapeCasts_S2048x32x5_S32x2048x5 : S2048x32x5.ShapeCasts S32x2048x5
  inb_S1x2048x5_S1x2048x5_0_0_0 : ∀ a, (![0, 0, 0] : Fin 3 → Nat) a + S1x2048x5.size a ≤ S1x2048x5.size a
  h_S1x2048x5 : 0 < S1x2048x5.numel
  shapeCasts_S1x2048x5_S2048x5 : S1x2048x5.ShapeCasts S2048x5
  inb_S5x640_S5x640_0_0 : ∀ a, (![0, 0] : Fin 2 → Nat) a + S5x640.size a ≤ S5x640.size a
  h_S5x640 : 0 < S5x640.numel
  shapeCasts_S5x640_S5x640 : S5x640.ShapeCasts S5x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  inb_S1x2048x640_S1x2048x640_0_0_0 : ∀ a, (![0, 0, 0] : Fin 3 → Nat) a + S1x2048x640.size a ≤ S1x2048x640.size a
  h_S1x2048x640 : 0 < S1x2048x640.numel
  shapeCasts_S1x2048x640_S2048x640 : S1x2048x640.ShapeCasts S2048x640
  shapeCasts_S2048x640_S1x2048x640 : S2048x640.ShapeCasts S1x2048x640
  dot_S2048x5_S5x640_S2048x640_1_0_0_1_n_n_wf : DotDims.WF S2048x5 S5x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x5.size a ≤ S32x2048x5.size a
  hwx0_0 : ∀ i : grid0.Coords, EltTy.bits .f32 = 32 ∨ (Rect.block (s := S32x2048x5) S1x2048x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x640.size a ≤ S5x640.size a
  hwx0_1 : ∀ i : grid0.Coords, EltTy.bits .f32 = 32 ∨ (Rect.block (s := S5x640) S5x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x640.size a ≤ S32x2048x640.size a
  hwx0_3 : ∀ i : grid0.Coords, EltTy.bits .f32 = 32 ∨ (Rect.block (s := S32x2048x640) S1x2048x640.size (cc0_transform_3 i) (hinb0_3 i)).WholeWords (EltTy.packing .f32)

variable [Facts₀]

def dot_S2048x5_S5x640_S2048x640_1_0_0_1_n_n : DotDims S2048x5 S5x640 S2048x640 where
  lhsContracting := [1]
  rhsContracting := [0]
  lhsNonContracting := [0]
  rhsNonContracting := [1]
  lhsBatch := []
  rhsBatch := []
  wf := dot_S2048x5_S5x640_S2048x640_1_0_0_1_n_n_wf

abbrev win0_0 : Pipeline.Window sig grid0 :=
  Pipeline.Window.ofSpec (Memref.whole main_v42) S1x2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x2048x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x5 : Shape := ⟨3, ![32, 2048, 5]⟩
abbrev S128 : Shape := ⟨1, ![128]⟩
abbrev S5x128 : Shape := ⟨2, ![5, 128]⟩
abbrev S32x2048x1 : Shape := ⟨3, ![32, 2048, 1]⟩
abbrev S1x1x128 : Shape := ⟨3, ![1, 1, 128]⟩
abbrev S32x2048x128 : Shape := ⟨3, ![32, 2048, 128]⟩
abbrev S1x128 : Shape := ⟨2, ![1, 128]⟩
abbrev S32x2048x128x1 : Shape := ⟨4, ![32, 2048, 128, 1]⟩
abbrev S32x2048x128x5 : Shape := ⟨4, ![32, 2048, 128, 5]⟩
abbrev S2048x32x128x5 : Shape := ⟨4, ![2048, 32, 128, 5]⟩
abbrev S32x2048x640 : Shape := ⟨3, ![32, 2048, 640]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x5, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S5x128, .f32⟩
  | .hbm, ⟨10, _⟩ => ⟨S32x2048x1, .f32⟩
  | .hbm, ⟨11, _⟩ => ⟨S1x1x128, .f32⟩
  | .hbm, ⟨12, _⟩ => ⟨S32x2048x128, .f32⟩
  | .hbm, ⟨13, _⟩ => ⟨S32x2048x128, .f32⟩
  | .hbm, ⟨14, _⟩ => ⟨S32x2048x128, .f32⟩
  | .hbm, ⟨15, _⟩ => ⟨S1x1x128, .f32⟩
  | .hbm, ⟨16, _⟩ => ⟨S32x2048x128, .f32⟩
  | .hbm, ⟨17, _⟩ => ⟨S32x2048x128, .f32⟩
  | .hbm, ⟨18, _⟩ => ⟨S1x128, .f32⟩
  | .hbm, ⟨19, _⟩ => ⟨S128, .f32⟩
  | .hbm, ⟨20, _⟩ => ⟨S1x1x128, .f32⟩
  | .hbm, ⟨21, _⟩ => ⟨S32x2048x128, .f32⟩
  | .hbm, ⟨22, _⟩ => ⟨S32x2048x128, .f32⟩
  | .hbm, ⟨23, _⟩ => ⟨S32x2048x1, .f32⟩
  | .hbm, ⟨24, _⟩ => ⟨S1x1x128, .f32⟩
  | .hbm, ⟨25, _⟩ => ⟨S32x2048x128, .f32⟩
  | .hbm, ⟨26, _⟩ => ⟨S32x2048x128, .f32⟩
  | .hbm, ⟨27, _⟩ => ⟨S32x2048x128, .f32⟩
  | .hbm, ⟨28, _⟩ => ⟨S1x1x128, .f32⟩
  | .hbm, ⟨29, _⟩ => ⟨S32x2048x128, .f32⟩
  | .hbm, ⟨30, _⟩ => ⟨S32x2048x128, .f32⟩
  | .hbm, ⟨31, _⟩ => ⟨S1x128, .f32⟩
  | .hbm, ⟨32, _⟩ => ⟨S128, .f32⟩
  | .hbm, ⟨33, _⟩ => ⟨S1x1x128, .f32⟩
  | .hbm, ⟨34, _⟩ => ⟨S32x2048x128, .f32⟩
  | .hbm, ⟨35, _⟩ => ⟨S32x2048x128, .f32⟩
  | .hbm, ⟨36, _⟩ => ⟨S32x2048x1, .f32⟩
  | .hbm, ⟨37, _⟩ => ⟨S1x1x128, .f32⟩
  | .hbm, ⟨38, _⟩ => ⟨S32x2048x128, .f32⟩
  | .hbm, ⟨39, _⟩ => ⟨S32x2048x128, .f32⟩
  | .hbm, ⟨40, _⟩ => ⟨S32x2048x128, .f32⟩
  | .hbm, ⟨41, _⟩ => ⟨S1x1x128, .f32⟩
  | .hbm, ⟨42, _⟩ => ⟨S32x2048x128, .f32⟩
  | .hbm, ⟨43, _⟩ => ⟨S32x2048x128, .f32⟩
  | .hbm, ⟨44, _⟩ => ⟨S1x128, .f32⟩
  | .hbm, ⟨45, _⟩ => ⟨S128, .f32⟩
  | .hbm, ⟨46, _⟩ => ⟨S1x1x128, .f32⟩
  | .hbm, ⟨47, _⟩ => ⟨S32x2048x128, .f32⟩
  | .hbm, ⟨48, _⟩ => ⟨S32x2048x128, .f32⟩
  | .hbm, ⟨49, _⟩ => ⟨S32x2048x1, .f32⟩
  | .hbm, ⟨50, _⟩ => ⟨S1x1x128, .f32⟩
  | .hbm, ⟨51, _⟩ => ⟨S32x2048x128, .f32⟩
  | .hbm, ⟨52, _⟩ => ⟨S32x2048x128, .f32⟩
  | .hbm, ⟨53, _⟩ => ⟨S32x2048x128, .f32⟩
  | .hbm, ⟨54, _⟩ => ⟨S1x1x128, .f32⟩
  | .hbm, ⟨55, _⟩ => ⟨S32x2048x128, .f32⟩
  | .hbm, ⟨56, _⟩ => ⟨S32x2048x128, .f32⟩
  | .hbm, ⟨57, _⟩ => ⟨S1x128, .f32⟩
  | .hbm, ⟨58, _⟩ => ⟨S128, .f32⟩
  | .hbm, ⟨59, _⟩ => ⟨S1x1x128, .f32⟩
  | .hbm, ⟨60, _⟩ => ⟨S32x2048x128, .f32⟩
  | .hbm, ⟨61, _⟩ => ⟨S32x2048x128, .f32⟩
  | .hbm, ⟨62, _⟩ => ⟨S32x2048x1, .f32⟩
  | .hbm, ⟨63, _⟩ => ⟨S1x1x128, .f32⟩
  | .hbm, ⟨64, _⟩ => ⟨S32x2048x128, .f32⟩
  | .hbm, ⟨65, _⟩ => ⟨S32x2048x128, .f32⟩
  | .hbm, ⟨66, _⟩ => ⟨S32x2048x128, .f32⟩
  | .hbm, ⟨67, _⟩ => ⟨S1x1x128, .f32⟩
  | .hbm, ⟨68, _⟩ => ⟨S32x2048x128, .f32⟩
  | .hbm, ⟨69, _⟩ => ⟨S32x2048x128, .f32⟩
  | .hbm, ⟨70, _⟩ => ⟨S1x128, .f32⟩
  | .hbm, ⟨71, _⟩ => ⟨S128, .f32⟩
  | .hbm, ⟨72, _⟩ => ⟨S1x1x128, .f32⟩
  | .hbm, ⟨73, _⟩ => ⟨S32x2048x128, .f32⟩
  | .hbm, ⟨74, _⟩ => ⟨S32x2048x128, .f32⟩
  | .hbm, ⟨75, _⟩ => ⟨S32x2048x128x1, .f32⟩
  | .hbm, ⟨76, _⟩ => ⟨S32x2048x128x1, .f32⟩
  | .hbm, ⟨77, _⟩ => ⟨S32x2048x128x1, .f32⟩
  | .hbm, ⟨78, _⟩ => ⟨S32x2048x128x1, .f32⟩
  | .hbm, ⟨79, _⟩ => ⟨S32x2048x128x1, .f32⟩
  | .hbm, ⟨80, _⟩ => ⟨S32x2048x128x5, .f32⟩
  | .hbm, ⟨81, _⟩ => ⟨S2048x32x128x5, .f32⟩
  | .hbm, ⟨82, _⟩ => ⟨S32x2048x640, .f32⟩
  | _, _ => ⟨S32x2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩

abbrev nD : Nat := 1
abbrev τ : Topo := Topo.v7x

variable {F : FTy → Type} [FloatOps F]

class Facts₀ : Prop where
  slices_S32x2048x5_S32x2048x1_0_0_0 : S32x2048x5.Slices ![0, 0, 0] S32x2048x1
  bcast_S128_S1x1x128_2 : S128.BroadcastsInDim S1x1x128 (![2] : Fin 1 → Fin S1x1x128.rank)
  bcast_S32x2048x1_S32x2048x128_0_1_2 : S32x2048x1.BroadcastsInDim S32x2048x128 (![0, 1, 2] : Fin 3 → Fin S32x2048x128.rank)
  bcast_S1x1x128_S32x2048x128_0_1_2 : S1x1x128.BroadcastsInDim S32x2048x128 (![0, 1, 2] : Fin 3 → Fin S32x2048x128.rank)
  slices_S5x128_S1x128_0_0 : S5x128.Slices ![0, 0] S1x128
  shapeCasts_S1x128_S128 : S1x128.ShapeCasts S128
  slices_S32x2048x5_S32x2048x1_0_0_1 : S32x2048x5.Slices ![0, 0, 1] S32x2048x1
  slices_S5x128_S1x128_1_0 : S5x128.Slices ![1, 0] S1x128
  slices_S32x2048x5_S32x2048x1_0_0_2 : S32x2048x5.Slices ![0, 0, 2] S32x2048x1
  slices_S5x128_S1x128_2_0 : S5x128.Slices ![2, 0] S1x128
  slices_S32x2048x5_S32x2048x1_0_0_3 : S32x2048x5.Slices ![0, 0, 3] S32x2048x1
  slices_S5x128_S1x128_3_0 : S5x128.Slices ![3, 0] S1x128
  slices_S32x2048x5_S32x2048x1_0_0_4 : S32x2048x5.Slices ![0, 0, 4] S32x2048x1
  slices_S5x128_S1x128_4_0 : S5x128.Slices ![4, 0] S1x128
  bcast_S32x2048x128_S32x2048x128x1_0_1_2 : S32x2048x128.BroadcastsInDim S32x2048x128x1 (![0, 1, 2] : Fin 3 → Fin S32x2048x128x1.rank)
  concatenates_S32x2048x128x1_S32x2048x128x1_S32x2048x128x1_S32x2048x128x1_S32x2048x128x1_S32x2048x128x5_d3 : Shape.Concatenates [S32x2048x128x1, S32x2048x128x1, S32x2048x128x1, S32x2048x128x1, S32x2048x128x1] S32x2048x128x5 3
  transposes_S32x2048x128x5_S2048x32x128x5_1_0_2_3 : S32x2048x128x5.Transposes [1, 0, 2, 3] S2048x32x128x5
  shapeCasts_S2048x32x128x5_S32x2048x640 : S2048x32x128x5.ShapeCasts S32x2048x640

variable [Facts₀]

class Facts : Prop extends Facts₀ where

variable [Facts]
-- ==== Proof.KernelRegion.lean ====
/-
  The one kernel region of the program, run from any launch memory, at any float instance.

  The program is a line of host operations that build three small operand arrays — the input rows re-ordered,
  a 5 × 640 selection matrix, a 1 × 640 bias row — followed by one grid of 32 points. At point `t` the body
  reads block `t` of the re-ordered input (2048 rows of 5), the whole selection matrix and the whole bias row,
  and stores one 2048 × 640 block: the matrix product of the first two plus the bias row repeated down the rows.
  Every point writes its own block of the result, so nothing is carried from point to point.

  This module states what the region finds (the contents after the host line), what the body leaves in the
  output block as a function of the three blocks it read, and concludes that every execution terminates with
  each window's array at the contents the blocks written back determine and every other array as the region
  found it — in particular the ten argument arrays, which no host operation writes, end as launched.
-/
import proofs.«109671_j11227044512450_2_alg».proof.Proof.Gen.Kernel.Launch
import proofs.«109671_j11227044512450_2_alg».proof.Proof.Gen.Kernel.Skeleton
import proofs.«109671_j11227044512450_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The contents of every array of core `c` when the region is entered: the launch contents carried through the
    host line. -/
abbrev atEntry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is the host line and then the region, so the region is entered at `atEntry`. -/
theorem toRegion (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- An array that is the result of no operation of the host line is found as launched: each operation writes its
    one result array, and that array is another. -/
local macro "untouched_by_host_line" : tactic => `(tactic|
  (refine StableHlo.after_of_forall_not_mem _ _ (List.forall_iff_forall_mem.mp ?_)
   simp only [hostOps0, List.Forall, StableHlo.nullary_writes, StableHlo.unary_writes, StableHlo.binary_writes,
     StableHlo.reshape_writes, StableHlo.nary_writes, Finset.mem_singleton]
   repeat' apply And.intro
   all_goals exact StableHlo.devRef_ne_of_ne (by decide)))

theorem atEntry_arg0 (c : Dev nD) : atEntry m c main_arg0 = m ((c : Thread nD τ).loc main_arg0) := by
  show StableHlo.after hostOps0 (fun b => m (c, b)) (Proc.devRef .tc main_arg0) = _; untouched_by_host_line
theorem atEntry_arg1 (c : Dev nD) : atEntry m c main_arg1 = m ((c : Thread nD τ).loc main_arg1) := by
  show StableHlo.after hostOps0 (fun b => m (c, b)) (Proc.devRef .tc main_arg1) = _; untouched_by_host_line
theorem atEntry_arg2 (c : Dev nD) : atEntry m c main_arg2 = m ((c : Thread nD τ).loc main_arg2) := by
  show StableHlo.after hostOps0 (fun b => m (c, b)) (Proc.devRef .tc main_arg2) = _; untouched_by_host_line
theorem atEntry_arg3 (c : Dev nD) : atEntry m c main_arg3 = m ((c : Thread nD τ).loc main_arg3) := by
  show StableHlo.after hostOps0 (fun b => m (c, b)) (Proc.devRef .tc main_arg3) = _; untouched_by_host_line
theorem atEntry_arg4 (c : Dev nD) : atEntry m c main_arg4 = m ((c : Thread nD τ).loc main_arg4) := by
  show StableHlo.after hostOps0 (fun b => m (c, b)) (Proc.devRef .tc main_arg4) = _; untouched_by_host_line
theorem atEntry_arg5 (c : Dev nD) : atEntry m c main_arg5 = m ((c : Thread nD τ).loc main_arg5) := by
  show StableHlo.after hostOps0 (fun b => m (c, b)) (Proc.devRef .tc main_arg5) = _; untouched_by_host_line
theorem atEntry_arg6 (c : Dev nD) : atEntry m c main_arg6 = m ((c : Thread nD τ).loc main_arg6) := by
  show StableHlo.after hostOps0 (fun b => m (c, b)) (Proc.devRef .tc main_arg6) = _; untouched_by_host_line
theorem atEntry_arg7 (c : Dev nD) : atEntry m c main_arg7 = m ((c : Thread nD τ).loc main_arg7) := by
  show StableHlo.after hostOps0 (fun b => m (c, b)) (Proc.devRef .tc main_arg7) = _; untouched_by_host_line
theorem atEntry_arg8 (c : Dev nD) : atEntry m c main_arg8 = m ((c : Thread nD τ).loc main_arg8) := by
  show StableHlo.after hostOps0 (fun b => m (c, b)) (Proc.devRef .tc main_arg8) = _; untouched_by_host_line
theorem atEntry_arg9 (c : Dev nD) : atEntry m c main_arg9 = m ((c : Thread nD τ).loc main_arg9) := by
  show StableHlo.after hostOps0 (fun b => m (c, b)) (Proc.devRef .tc main_arg9) = _; untouched_by_host_line

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current buffer holds the window's block at every point, whether the block was moved there at
    this point or at an earlier one (a window whose block index does not change is moved once): the body only reads it. -/
theorem found_in0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The body reads and writes each of its four buffers whole. -/
abbrev wholeRows : Rect S1x2048x5 := Rect.unit (s := S1x2048x5) ![0, 0, 0] S1x2048x5.size inb_S1x2048x5_S1x2048x5_0_0_0
abbrev wholeSel : Rect S5x640 := Rect.unit (s := S5x640) ![0, 0] S5x640.size inb_S5x640_S5x640_0_0
abbrev wholeBias : Rect S1x640 := Rect.unit (s := S1x640) ![0, 0] S1x640.size inb_S1x640_S1x640_0_0
abbrev wholeOut : Rect S1x2048x640 := Rect.unit (s := S1x2048x640) ![0, 0, 0] S1x2048x640.size inb_S1x2048x640_S1x2048x640_0_0_0

/-- The output buffer after the body, from the three blocks read: the one store, of the product plus the bias row. -/
def stored (rows : Vec F S1x2048x5 .f32) (sel : Vec F S5x640 .f32) (bias : Vec F S1x640 .f32) : Vec F S1x2048x640 .f32 :=
  View.canon [⟨wholeOut, k0_pay1 (View.ld rows wholeRows) (View.ld sel wholeSel) (View.ld bias wholeBias)⟩]

/-- The one store fills the buffer. -/
theorem store_covers (p0 : Vec F S1x2048x640 .f32) (y : S1x2048x640.Idx) :
    ∃ pc ∈ ([⟨wholeOut, p0⟩] : List (View.Piece (Elt F) S1x2048x640 .f32)), y ∈ pc.1.set :=
  View.cover_of_tiled [⟨wholeOut, p0⟩] S1x2048x640.size (by rfl) y

set_option maxHeartbeats 1000000 in
/-- The body on whole buffers — the three inputs at contents `rows`, `sel`, `bias`, the output at anything — runs to its
    end leaving the inputs as they were and the output at `stored rows sel bias`. (It also loads the output buffer
    before storing into it; the value loaded is not used.) -/
theorem body_runs (c : Dev nD) (E : Set ℕ) (arg1 : Memref sig .tc .vmem S1x2048x5 .f32) (harg1 : arg1.IsWhole)
    (arg2 : Memref sig .tc .vmem S5x640 .f32) (harg2 : arg2.IsWhole) (arg3 : Memref sig .tc .vmem S1x640 .f32) (harg3 : arg3.IsWhole)
    (arg4 : Memref sig .tc .vmem S1x2048x640 .f32) (harg4 : arg4.IsWhole) (i : grid0.Coords)
    (rows : Vec F S1x2048x5 .f32) (sel : Vec F S5x640 .f32) (bias : Vec F S1x640 .f32) (K : PUnit → sProp 𝕄) :
    iprop(owns (c : Thread nD τ) arg1 fullShare rows ∗ owns (c : Thread nD τ) arg2 fullShare sel ∗ owns (c : Thread nD τ) arg3 fullShare bias
        ∗ (∃ d, owns (c : Thread nD τ) arg4 fullShare d)
        ∗ (iprop(owns (c : Thread nD τ) arg1 fullShare rows ∗ owns (c : Thread nD τ) arg2 fullShare sel ∗ owns (c : Thread nD τ) arg3 fullShare bias
            ∗ owns (c : Thread nD τ) arg4 fullShare (stored rows sel bias)) -∗ K ⟨⟩))
      ⊢ wp frame (wpE (defs₀ (F := F)) Variants.none c none) E (cc0__dense_mlp_kernel i arg1 harg1 arg2 harg2 arg3 harg3 arg4 harg4) K := by
  simp only [cc0__dense_mlp_kernel_eq_skeleton]; unfold cc0__dense_mlp_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The proof data of the region -/

/-- On core `c`: the arrays as the region finds them; after the body at point `t` each input buffer at its block and
    the output buffer at `stored` of the three input blocks; between points only the buffers no window uses and the
    generator register, at anything; nothing owed; full shares. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_eq (c : Dev nD) (w : Fin cfg0.W) : (regionData m 0 c).A w = atEntry m c (Pipeline.arrRef spec0 w) := by
  dsimp only [regionData]

theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) :
    (regionData m 0 c).after 3 t = stored (blockAt m c 0 t) (blockAt m c 1 t) (blockAt m c 2 t) := by dsimp only [regionData]

theorem found0 (c : Dev nD) (t : Fin cfg0.N) (d) : (regionData m 0 c).before 0 t d = blockAt m c 0 t :=
  found_in0 m (regionData m 0 c) (arrays_eq m c 0) (left0 m c) t d
theorem found1 (c : Dev nD) (t : Fin cfg0.N) (d) : (regionData m 0 c).before 1 t d = blockAt m c 1 t :=
  found_in1 m (regionData m 0 c) (arrays_eq m c 1) (left1 m c) t d
theorem found2 (c : Dev nD) (t : Fin cfg0.N) (d) : (regionData m 0 c).before 2 t d = blockAt m c 2 t :=
  found_in2 m (regionData m 0 c) (arrays_eq m c 2) (left2 m c) t d

/-! ## The body at a point of the grid -/

/-- What the body is called with at point `t`, window by window, -/
def bodyPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d)))

/-- and what it returns. -/
def bodyPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t))

/-- At any point the input buffers hold their blocks, so `body_runs` applies; what is kept between points passes
    through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (regionData m 0 c).Φ t.succ = (regionData m 0 c).Φ t.castSucc from rfl,
    show (regionData m 0 c).owesAt () t.succ = (regionData m 0 c).owesAt () t.castSucc from rfl,
    left0, left1, left2, left3]
  iintro ⟨HΦ, Ho, ⟨%d0, H0⟩, ⟨%d1, H1⟩, ⟨%d2, H2⟩, ⟨%d3, H3⟩⟩
  iapply (body_runs c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (regionData (F := F) m 0 c) (defs₀ (F := F)) Variants.none () Set.univ := fun t => by
  rw [bigSep_W0, bigSep_W0]
  exact body_at_point m c t

/-! ## The run -/

set_option backward.isDefEq.respectTransparency.types false in
/-- From any launch memory with every counter at zero, every weakly fair execution of the program terminates, and in
    every final state each window's array holds what the blocks written back determine, every other array of the
    program what the region found in it. -/
theorem run_region : θ_run defs (onTc (τ := τ) (main (F := F))) (s₀ m ρ) (Pipeline.FramePost cfgs (regionData m) 0 (atEntry m)) :=
  Pipeline.θ_run_frame cfgs (regionData m) (0 : Fin 1) launch0 defs₀ Variants.none m ρ main
    (hbody := fun c => (body_everywhere m c).loose) (hshare := fun c => (regionData m 0 c).share_full fun _ => rfl)
    (howed := fun _ _ => rfl) (V := atEntry m) (hmain := toRegion m Variants.none) (hA := arrays_eq m) (hΦ := fun _ _ => rfl)

/-- No window's array is an argument, and no host operation writes one: each argument array ends as launched. -/
theorem args_kept (r : PUnit × MemSt nD τ sig (Elt F)) (h : Pipeline.FramePost cfgs (regionData m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (atEntry_arg0 m c),
   ((h c).2 main_arg1 (Pipeline.mem_restRefs_of main_arg1 (by decide) (by decide))).trans (atEntry_arg1 m c),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c),
   ((h c).2 main_arg8 (Pipeline.mem_restRefs_of main_arg8 (by decide) (by decide))).trans (atEntry_arg8 m c),
   ((h c).2 main_arg9 (Pipeline.mem_restRefs_of main_arg9 (by decide) (by decide))).trans (atEntry_arg9 m c)⟩

/-- The program runs to its end, faults nowhere and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m r h c) (run_region m ρ)

end Cert.Kernel.Region

end
-- ==== Proof.KernelIdealRegion.lean ====
/-
  The one kernel region of the program, run from any launch memory, at any float instance.

  The program is a line of host operations that build three small operand arrays — the input rows re-ordered,
  a 5 × 640 selection matrix, a 1 × 640 bias row — followed by one grid of 32 points. At point `t` the body
  reads block `t` of the re-ordered input (2048 rows of 5), the whole selection matrix and the whole bias row,
  and stores one 2048 × 640 block: the matrix product of the first two plus the bias row repeated down the rows.
  Every point writes its own block of the result, so nothing is carried from point to point.

  This module states what the region finds (the contents after the host line), what the body leaves in the
  output block as a function of the three blocks it read, and concludes that every execution terminates with
  each window's array at the contents the blocks written back determine and every other array as the region
  found it — in particular the ten argument arrays, which no host operation writes, end as launched.
-/
import proofs.«109671_j11227044512450_2_alg».proof.Proof.Gen.KernelIdeal.Launch
import proofs.«109671_j11227044512450_2_alg».proof.Proof.Gen.KernelIdeal.Skeleton
import proofs.«109671_j11227044512450_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The contents of every array of core `c` when the region is entered: the launch contents carried through the
    host line. -/
abbrev atEntry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is the host line and then the region, so the region is entered at `atEntry`. -/
theorem toRegion (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- An array that is the result of no operation of the host line is found as launched: each operation writes its
    one result array, and that array is another. -/
local macro "untouched_by_host_line" : tactic => `(tactic|
  (refine StableHlo.after_of_forall_not_mem _ _ (List.forall_iff_forall_mem.mp ?_)
   simp only [hostOps0, List.Forall, StableHlo.nullary_writes, StableHlo.unary_writes, StableHlo.binary_writes,
     StableHlo.reshape_writes, StableHlo.nary_writes, Finset.mem_singleton]
   repeat' apply And.intro
   all_goals exact StableHlo.devRef_ne_of_ne (by decide)))

theorem atEntry_arg0 (c : Dev nD) : atEntry m c main_arg0 = m ((c : Thread nD τ).loc main_arg0) := by
  show StableHlo.after hostOps0 (fun b => m (c, b)) (Proc.devRef .tc main_arg0) = _; untouched_by_host_line
theorem atEntry_arg1 (c : Dev nD) : atEntry m c main_arg1 = m ((c : Thread nD τ).loc main_arg1) := by
  show StableHlo.after hostOps0 (fun b => m (c, b)) (Proc.devRef .tc main_arg1) = _; untouched_by_host_line
theorem atEntry_arg2 (c : Dev nD) : atEntry m c main_arg2 = m ((c : Thread nD τ).loc main_arg2) := by
  show StableHlo.after hostOps0 (fun b => m (c, b)) (Proc.devRef .tc main_arg2) = _; untouched_by_host_line
theorem atEntry_arg3 (c : Dev nD) : atEntry m c main_arg3 = m ((c : Thread nD τ).loc main_arg3) := by
  show StableHlo.after hostOps0 (fun b => m (c, b)) (Proc.devRef .tc main_arg3) = _; untouched_by_host_line
theorem atEntry_arg4 (c : Dev nD) : atEntry m c main_arg4 = m ((c : Thread nD τ).loc main_arg4) := by
  show StableHlo.after hostOps0 (fun b => m (c, b)) (Proc.devRef .tc main_arg4) = _; untouched_by_host_line
theorem atEntry_arg5 (c : Dev nD) : atEntry m c main_arg5 = m ((c : Thread nD τ).loc main_arg5) := by
  show StableHlo.after hostOps0 (fun b => m (c, b)) (Proc.devRef .tc main_arg5) = _; untouched_by_host_line
theorem atEntry_arg6 (c : Dev nD) : atEntry m c main_arg6 = m ((c : Thread nD τ).loc main_arg6) := by
  show StableHlo.after hostOps0 (fun b => m (c, b)) (Proc.devRef .tc main_arg6) = _; untouched_by_host_line
theorem atEntry_arg7 (c : Dev nD) : atEntry m c main_arg7 = m ((c : Thread nD τ).loc main_arg7) := by
  show StableHlo.after hostOps0 (fun b => m (c, b)) (Proc.devRef .tc main_arg7) = _; untouched_by_host_line
theorem atEntry_arg8 (c : Dev nD) : atEntry m c main_arg8 = m ((c : Thread nD τ).loc main_arg8) := by
  show StableHlo.after hostOps0 (fun b => m (c, b)) (Proc.devRef .tc main_arg8) = _; untouched_by_host_line
theorem atEntry_arg9 (c : Dev nD) : atEntry m c main_arg9 = m ((c : Thread nD τ).loc main_arg9) := by
  show StableHlo.after hostOps0 (fun b => m (c, b)) (Proc.devRef .tc main_arg9) = _; untouched_by_host_line

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current buffer holds the window's block at every point, whether the block was moved there at
    this point or at an earlier one (a window whose block index does not change is moved once): the body only reads it. -/
theorem found_in0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The body reads and writes each of its four buffers whole. -/
abbrev wholeRows : Rect S1x2048x5 := Rect.unit (s := S1x2048x5) ![0, 0, 0] S1x2048x5.size inb_S1x2048x5_S1x2048x5_0_0_0
abbrev wholeSel : Rect S5x640 := Rect.unit (s := S5x640) ![0, 0] S5x640.size inb_S5x640_S5x640_0_0
abbrev wholeBias : Rect S1x640 := Rect.unit (s := S1x640) ![0, 0] S1x640.size inb_S1x640_S1x640_0_0
abbrev wholeOut : Rect S1x2048x640 := Rect.unit (s := S1x2048x640) ![0, 0, 0] S1x2048x640.size inb_S1x2048x640_S1x2048x640_0_0_0

/-- The output buffer after the body, from the three blocks read: the one store, of the product plus the bias row. -/
def stored (rows : Vec F S1x2048x5 .f32) (sel : Vec F S5x640 .f32) (bias : Vec F S1x640 .f32) : Vec F S1x2048x640 .f32 :=
  View.canon [⟨wholeOut, k0_pay1 (View.ld rows wholeRows) (View.ld sel wholeSel) (View.ld bias wholeBias)⟩]

/-- The one store fills the buffer. -/
theorem store_covers (p0 : Vec F S1x2048x640 .f32) (y : S1x2048x640.Idx) :
    ∃ pc ∈ ([⟨wholeOut, p0⟩] : List (View.Piece (Elt F) S1x2048x640 .f32)), y ∈ pc.1.set :=
  View.cover_of_tiled [⟨wholeOut, p0⟩] S1x2048x640.size (by rfl) y

set_option maxHeartbeats 1000000 in
/-- The body on whole buffers — the three inputs at contents `rows`, `sel`, `bias`, the output at anything — runs to its
    end leaving the inputs as they were and the output at `stored rows sel bias`. (It also loads the output buffer
    before storing into it; the value loaded is not used.) -/
theorem body_runs (c : Dev nD) (E : Set ℕ) (arg1 : Memref sig .tc .vmem S1x2048x5 .f32) (harg1 : arg1.IsWhole)
    (arg2 : Memref sig .tc .vmem S5x640 .f32) (harg2 : arg2.IsWhole) (arg3 : Memref sig .tc .vmem S1x640 .f32) (harg3 : arg3.IsWhole)
    (arg4 : Memref sig .tc .vmem S1x2048x640 .f32) (harg4 : arg4.IsWhole) (i : grid0.Coords)
    (rows : Vec F S1x2048x5 .f32) (sel : Vec F S5x640 .f32) (bias : Vec F S1x640 .f32) (K : PUnit → sProp 𝕄) :
    iprop(owns (c : Thread nD τ) arg1 fullShare rows ∗ owns (c : Thread nD τ) arg2 fullShare sel ∗ owns (c : Thread nD τ) arg3 fullShare bias
        ∗ (∃ d, owns (c : Thread nD τ) arg4 fullShare d)
        ∗ (iprop(owns (c : Thread nD τ) arg1 fullShare rows ∗ owns (c : Thread nD τ) arg2 fullShare sel ∗ owns (c : Thread nD τ) arg3 fullShare bias
            ∗ owns (c : Thread nD τ) arg4 fullShare (stored rows sel bias)) -∗ K ⟨⟩))
      ⊢ wp frame (wpE (defs₀ (F := F)) Variants.none c none) E (cc0__dense_mlp_kernel i arg1 harg1 arg2 harg2 arg3 harg3 arg4 harg4) K := by
  simp only [cc0__dense_mlp_kernel_eq_skeleton]; unfold cc0__dense_mlp_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The proof data of the region -/

/-- On core `c`: the arrays as the region finds them; after the body at point `t` each input buffer at its block and
    the output buffer at `stored` of the three input blocks; between points only the buffers no window uses and the
    generator register, at anything; nothing owed; full shares. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_eq (c : Dev nD) (w : Fin cfg0.W) : (regionData m 0 c).A w = atEntry m c (Pipeline.arrRef spec0 w) := by
  dsimp only [regionData]

theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) :
    (regionData m 0 c).after 3 t = stored (blockAt m c 0 t) (blockAt m c 1 t) (blockAt m c 2 t) := by dsimp only [regionData]

theorem found0 (c : Dev nD) (t : Fin cfg0.N) (d) : (regionData m 0 c).before 0 t d = blockAt m c 0 t :=
  found_in0 m (regionData m 0 c) (arrays_eq m c 0) (left0 m c) t d
theorem found1 (c : Dev nD) (t : Fin cfg0.N) (d) : (regionData m 0 c).before 1 t d = blockAt m c 1 t :=
  found_in1 m (regionData m 0 c) (arrays_eq m c 1) (left1 m c) t d
theorem found2 (c : Dev nD) (t : Fin cfg0.N) (d) : (regionData m 0 c).before 2 t d = blockAt m c 2 t :=
  found_in2 m (regionData m 0 c) (arrays_eq m c 2) (left2 m c) t d

/-! ## The body at a point of the grid -/

/-- What the body is called with at point `t`, window by window, -/
def bodyPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d)))

/-- and what it returns. -/
def bodyPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t))

/-- At any point the input buffers hold their blocks, so `body_runs` applies; what is kept between points passes
    through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (regionData m 0 c).Φ t.succ = (regionData m 0 c).Φ t.castSucc from rfl,
    show (regionData m 0 c).owesAt () t.succ = (regionData m 0 c).owesAt () t.castSucc from rfl,
    left0, left1, left2, left3]
  iintro ⟨HΦ, Ho, ⟨%d0, H0⟩, ⟨%d1, H1⟩, ⟨%d2, H2⟩, ⟨%d3, H3⟩⟩
  iapply (body_runs c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (regionData (F := F) m 0 c) (defs₀ (F := F)) Variants.none () Set.univ := fun t => by
  rw [bigSep_W0, bigSep_W0]
  exact body_at_point m c t

/-! ## The run -/

set_option backward.isDefEq.respectTransparency.types false in
/-- From any launch memory with every counter at zero, every weakly fair execution of the program terminates, and in
    every final state each window's array holds what the blocks written back determine, every other array of the
    program what the region found in it. -/
theorem run_region : θ_run defs (onTc (τ := τ) (main (F := F))) (s₀ m ρ) (Pipeline.FramePost cfgs (regionData m) 0 (atEntry m)) :=
  Pipeline.θ_run_frame cfgs (regionData m) (0 : Fin 1) launch0 defs₀ Variants.none m ρ main
    (hbody := fun c => (body_everywhere m c).loose) (hshare := fun c => (regionData m 0 c).share_full fun _ => rfl)
    (howed := fun _ _ => rfl) (V := atEntry m) (hmain := toRegion m Variants.none) (hA := arrays_eq m) (hΦ := fun _ _ => rfl)

/-- No window's array is an argument, and no host operation writes one: each argument array ends as launched. -/
theorem args_kept (r : PUnit × MemSt nD τ sig (Elt F)) (h : Pipeline.FramePost cfgs (regionData m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (atEntry_arg0 m c),
   ((h c).2 main_arg1 (Pipeline.mem_restRefs_of main_arg1 (by decide) (by decide))).trans (atEntry_arg1 m c),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c),
   ((h c).2 main_arg8 (Pipeline.mem_restRefs_of main_arg8 (by decide) (by decide))).trans (atEntry_arg8 m c),
   ((h c).2 main_arg9 (Pipeline.mem_restRefs_of main_arg9 (by decide) (by decide))).trans (atEntry_arg9 m c)⟩

/-- The program runs to its end, faults nowhere and leaves its ten argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m r h c) (run_region m ρ)

end Cert.KernelIdeal.Region

end
-- ==== Proof.OperandTerms.lean ====
/-
  The three arrays the host line prepares for the kernel, each as one term of the argument arrays:
  the rows (x with its first two axes swapped, regrouped into 32 × 2048 × 5), the 5 × 640 selection matrix (the five
  weight vectors as columns of a 128 × 5 matrix, transposed, times the 5 × 5 identity stretched along the feature axis),
  and the 1 × 640 bias row (the five sums of a bias vector and an embedding row as columns of a 128 × 5 matrix, read in
  row-major order).
-/
import proofs.«109671_j11227044512450_2_alg».proof.Proof.Gen.KernelIdeal
import Idealize.ShloMosaic.PureOps.Ideal

noncomputable section

namespace Cert.KernelIdeal.Operands

open Cert.KernelIdeal Cert.KernelIdeal.Gen
open Idealize.ShloMosaic

/-! ## The three arrays as terms of the arguments -/

/-- The rows: swap the first two axes, regroup. -/
def rowsOp (X : S32x2048x5.Idx → EReal) : S32x2048x5.Idx → EReal :=
  shapeCast S32x2048x5 (transpose S2048x32x5 [1, 0, 2] X transposes_S32x2048x5_S2048x32x5_1_0_2) shapeCasts_S2048x32x5_S32x2048x5

/-- A vector of 128 as a column. -/
def col (w : S128.Idx → EReal) : S128x1.Idx → EReal := broadcastInDim S128x1 ![0] bcast_S128_S128x1_0 w

/-- Five vectors as the columns of a 128 × 5 matrix. -/
def cols (y0 y1 y2 y3 y4 : S128.Idx → EReal) : S128x5.Idx → EReal :=
  concatenate S128x5 1 [⟨S128x1, col y0⟩, ⟨S128x1, col y1⟩, ⟨S128x1, col y2⟩, ⟨S128x1, col y3⟩, ⟨S128x1, col y4⟩]
    concatenates_S128x1_S128x1_S128x1_S128x1_S128x1_S128x5_d1

/-- The 5 × 5 identity: "row index plus zero equals column index", converted to a float. -/
def eye : S5x5.Idx → EReal :=
  uitofp (F := Ideal) .f32 (cmpi .eq (addi (iotaInDim S5x5 32 0) (broadcastInDim S5x5 ![] bcast_S_S5x5 (constantI S_ 32 0#32))) (iotaInDim S5x5 32 1))

/-- The selection matrix. -/
def selOp (w1 w3 w5 w7 : S128.Idx → EReal) : S5x640.Idx → EReal :=
  shapeCast S5x640 (mulf (F := Ideal) (φ := .f32)
    (broadcastInDim S5x128x5 ![0, 1, 2] bcast_S5x128x1_S5x128x5_0_1_2
      (broadcastInDim S5x128x1 ![0, 1] bcast_S5x128_S5x128x1_0_1
        (transpose S5x128 [1, 0] (cols w1 w3 w3 w5 w7) transposes_S128x5_S5x128_1_0)))
    (broadcastInDim S5x128x5 ![0, 1, 2] bcast_S5x1x5_S5x128x5_0_1_2
      (broadcastInDim S5x1x5 ![0, 2] bcast_S5x5_S5x1x5_0_2 eye))) shapeCasts_S5x128x5_S5x640

/-- One row of the embedding table as a vector of 128. -/
def embRow (E : S5x128.Idx → EReal) (off : Fin 2 → Nat) (h : S5x128.Slices off S1x128) : S128.Idx → EReal :=
  shapeCast S128 (extractStridedSlice S1x128 off E h) shapeCasts_S1x128_S128

/-- The bias row. -/
def biasOp (b2 b4 b6 b8 : S128.Idx → EReal) (E : S5x128.Idx → EReal) : S1x640.Idx → EReal :=
  shapeCast S1x640 (cols
    (addf (F := Ideal) (φ := .f32) b2 (embRow E ![0, 0] slices_S5x128_S1x128_0_0))
    (addf (F := Ideal) (φ := .f32) b4 (embRow E ![1, 0] slices_S5x128_S1x128_1_0))
    (addf (F := Ideal) (φ := .f32) b4 (embRow E ![2, 0] slices_S5x128_S1x128_2_0))
    (addf (F := Ideal) (φ := .f32) b6 (embRow E ![3, 0] slices_S5x128_S1x128_3_0))
    (addf (F := Ideal) (φ := .f32) b8 (embRow E ![4, 0] slices_S5x128_S1x128_4_0))) shapeCasts_S128x5_S1x640

end Cert.KernelIdeal.Operands

end
-- ==== Proof.LibNaryFive.lean ====
/-
  A host operation of five operands named by a literal family of references, read at its own result.
-/
import Idealize.ShloMosaic.Lib.StableHlo.Run

noncomputable section

namespace Idealize.ShloMosaic.StableHlo

variable {τ : Topo} {sig : RefSig} {Val : EltTy → Type} {x a b c d y : Ref sig .tc}

/-- The result of an operation of FIVE operands given as a literal family `![x, a, b, c, d]` (a concatenation of five
    arrays), with each operand's contents read AT ITS OWN REFERENCE: `Fin.cons (F x) (Fin.cons (F a) …)` in place of
    `fun k => F (![x, a, b, c, d] k)`. Under the binder the reference `![…] k` is no literal, so nothing more can be
    said of the operands' contents; after this rewriting each operand's contents is a term of its own, which further
    rewriting of a line of operations reaches. (The library states the same for four operands.) -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Idealize.ShloMosaic.StableHlo

end
-- ==== Proof.OperandsFound.lean ====
/-
  The region finds the three prepared arrays: carrying the launch contents through the host line, the rows' array,
  the selection matrix's and the bias row's hold the terms of the argument arrays that name them. Each operation is
  read at its own result and passed over at every other array, outermost first.
-/
import proofs.«109671_j11227044512450_2_alg».proof.Proof.KernelIdealRegion
import proofs.«109671_j11227044512450_2_alg».proof.Proof.OperandTerms
import proofs.«109671_j11227044512450_2_alg».proof.Proof.LibNaryFive
import Idealize.ShloMosaic.Lib.StableHlo.Run

set_option maxRecDepth 16384

noncomputable section

namespace Cert.KernelIdeal.Operands

open Cert.KernelIdeal Cert.KernelIdeal.Gen Cert.KernelIdeal.Region
open Idealize.ShloMosaic Idealize.ShloMosaic.TcCoe Idealize.SL.Sem Idealize.ShloMosaic.StableHlo

/-! ## The region finds these three arrays -/

variable (m : (ℓ : Loc nD τ sig) → Buf (Elt Ideal) ℓ)

/-- Each operation of the line read at its own result or passed over at another's, outermost first. -/
local macro "read_host_line" : tactic => `(tactic| (
  simp only [after_cons, after_nil]
  repeat (first
    | rw [nullary_result] | rw [unary_result] | rw [binary_result] | rw [reshape_result] | rw [nary5_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))))

set_option maxHeartbeats 4000000 in
theorem rows_found (c : Dev nD) :
    (atEntry m c main_v42 : S32x2048x5.Idx → EReal) = rowsOp (m ((c : Thread nD τ).loc main_arg0)) := by
  show StableHlo.after hostOps0 (fun b => m (c, b)) (Proc.devRef .tc main_v42) = _
  dsimp only [hostOps0]
  read_host_line
  rfl

set_option maxHeartbeats 4000000 in
theorem sel_found (c : Dev nD) :
    (atEntry m c main_v33 : S5x640.Idx → EReal) = selOp (m ((c : Thread nD τ).loc main_arg1)) (m ((c : Thread nD τ).loc main_arg3))
      (m ((c : Thread nD τ).loc main_arg5)) (m ((c : Thread nD τ).loc main_arg7)) := by
  show StableHlo.after hostOps0 (fun b => m (c, b)) (Proc.devRef .tc main_v33) = _
  dsimp only [hostOps0]
  read_host_line
  rfl

set_option maxHeartbeats 4000000 in
theorem bias_found (c : Dev nD) :
    (atEntry m c main_v40 : S1x640.Idx → EReal) = biasOp (m ((c : Thread nD τ).loc main_arg2)) (m ((c : Thread nD τ).loc main_arg4))
      (m ((c : Thread nD τ).loc main_arg6)) (m ((c : Thread nD τ).loc main_arg8)) (m ((c : Thread nD τ).loc main_arg9)) := by
  show StableHlo.after hostOps0 (fun b => m (c, b)) (Proc.devRef .tc main_v40) = _
  dsimp only [hostOps0]
  read_host_line
  rfl

end Cert.KernelIdeal.Operands

end
-- ==== Proof.Spec.lean ====
/-
  The result, entry by entry, as one function of the ten argument arrays over the extended reals.

  Five "streams" s = 0 … 4 share the input x : [32, 2048, 5]. Stream s scales column s of x by a weight vector and
  adds a bias vector and row s of an embedding table:

      stream_s[b, m, e] = x[b, m, s] · W_s[e] + B_s[e] + emb[s, e],      W = (w1, w3, w3, w5, w7),  B = (b2, b4, b4, b6, b8).

  The streams are interleaved on a last axis of 640 = 128 · 5 columns (column c holds feature e = c / 5 of stream
  s = c mod 5), and the rows are re-ordered: the 65536 rows (b, m), listed with m outermost (row number m · 32 + b),
  are cut again into 32 groups of 2048. So row (p, q) of the result is source row number r = p · 2048 + q, that is
  m = r / 32 and b = r mod 32.

  Also here: the one law the two programs differ by. One of them obtains x[·, s] · W_s[e] as a sum over all five
  columns k of x[·, k] · (W_k[e] · δ_ks), where δ is the 5 × 5 identity; on the extended reals a product with zero is
  zero whatever the other factor, so four of the five terms vanish and no finiteness is needed.
-/
import Idealize.ShloMosaic.PureOps.Ideal
import Idealize.ShloMosaic.Lib.ValueIdx
import Mathlib.Algebra.BigOperators.Fin

noncomputable section

namespace Cert.Streams

open Idealize.ShloMosaic Idealize.ShloMosaic.ValueIdx

/-! ## Coordinates -/

/-- Row `(p, q)` of the result is source row number `p · 2048 + q` in the order "step outermost": its batch index -/
def srcBatch (p : Fin 32) (q : Fin 2048) : Fin 32 := ⟨(p.val * 2048 + q.val) % 32, Nat.mod_lt _ (by decide)⟩
/-- and its step index. -/
def srcStep (p : Fin 32) (q : Fin 2048) : Fin 2048 := ⟨(p.val * 2048 + q.val) / 32, by have := p.isLt; have := q.isLt; omega⟩
/-- Column `c` of the result belongs to stream `c mod 5` -/
def stream (c : Fin 640) : Fin 5 := ⟨c.val % 5, Nat.mod_lt _ (by decide)⟩
/-- and holds its feature `c / 5`. -/
def feature (c : Fin 640) : Fin 128 := ⟨c.val / 5, by have := c.isLt; omega⟩

/-! ## The result -/

abbrev Vec128 : Type := (⟨1, ![128]⟩ : Shape).Idx → EReal

/-- The weight vector of stream `s`: the second and third streams share one. -/
def weightOf (w1 w3 w5 w7 : Vec128) (s : Fin 5) : Vec128 := ![w1, w3, w3, w5, w7] s
/-- The bias vector of stream `s`, shared likewise. -/
def biasOf (b2 b4 b6 b8 : Vec128) (s : Fin 5) : Vec128 := ![b2, b4, b4, b6, b8] s

/-- Entry `(p, q, c)` of the result. -/
def entry (X : (⟨3, ![32, 2048, 5]⟩ : Shape).Idx → EReal) (w1 b2 w3 b4 w5 b6 w7 b8 : Vec128)
    (E : (⟨2, ![5, 128]⟩ : Shape).Idx → EReal) (p : Fin 32) (q : Fin 2048) (c : Fin 640) : EReal :=
  X (ix3 (srcBatch p q) (srcStep p q) (stream c)) * weightOf w1 w3 w5 w7 (stream c) (ix1 (feature c))
    + biasOf b2 b4 b6 b8 (stream c) (ix1 (feature c)) + E (ix2 (stream c) (feature c))

/-- The result array. -/
def result (X : (⟨3, ![32, 2048, 5]⟩ : Shape).Idx → EReal) (w1 b2 w3 b4 w5 b6 w7 b8 : Vec128)
    (E : (⟨2, ![5, 128]⟩ : Shape).Idx → EReal) : (⟨3, ![32, 2048, 640]⟩ : Shape).Idx → EReal :=
  fun i => entry X w1 b2 w3 b4 w5 b6 w7 b8 E (i 0) (i 1) (i 2)

/-! ## Selecting one column by a sum over all five -/

/-- A sum over the five columns against weights masked by row `s` of the identity keeps column `s` alone: the other
    four products have a zero factor. -/
theorem sum_masked (x W d : Fin 5 → EReal) (s : Fin 5) (hd : ∀ k, d k = if k = s then 1 else 0) :
    ∑ k : Fin 5, x k * (W k * d k) = x s * W s := by
  rw [Finset.sum_eq_single s]
  · rw [hd s, if_pos rfl, mul_one]
  · intro k _ hk; rw [hd k, if_neg hk, mul_zero, mul_zero]
  · intro h; exact absurd (Finset.mem_univ s) h

/-- Entry `(k, s)` of the 5 × 5 identity as the programs compute it: the one-bit word "row index plus zero equals
    column index", on 32-bit words. -/
def eyeWord (k s : Fin 5) : BitVec 1 := IntOp.cmpi .eq (IntOp.addi (BitVec.ofNat 32 k.val) 0#32) (BitVec.ofNat 32 s.val)

theorem eyeWord_toNat : ∀ k s : Fin 5, (eyeWord k s).toNat = if k = s then 1 else 0 := by decide

/-- Read as a float, that word is one on the diagonal and zero off it. -/
theorem eye_entry (k s : Fin 5) : (FloatOps.uitofp (F := Ideal) .f32 (eyeWord k s) : EReal) = if k = s then 1 else 0 := by
  show (((eyeWord k s).toNat : ℝ) : EReal) = _
  rw [eyeWord_toNat]
  split <;> simp

end Cert.Streams

end
-- ==== Proof.OperandsAt.lean ====
/-
  The three prepared arrays read at an entry.

  * rows: entry (p, q, k) is x[b, m, k] for source row number r = p · 2048 + q, m = r / 32, b = r mod 32;
  * selection matrix: entry (k, c) is W_k[c / 5] · δ(k, c mod 5);
  * bias row: entry (0, c) is B_s[e] + emb[s, e] for s = c mod 5, e = c / 5.
  Each layout operation is read back one at a time: a regrouping by the flat position, a swap of axes by swapping the
  coordinates, a stretch along an axis by forgetting that coordinate, five columns side by side by the column's number.
-/
import proofs.«109671_j11227044512450_2_alg».proof.Proof.OperandTerms
import proofs.«109671_j11227044512450_2_alg».proof.Proof.Spec
import Idealize.ShloMosaic.Lib.Pipeline.Value
import Idealize.ShloMosaic.Lib.ValueIdx

set_option maxRecDepth 16384

noncomputable section

namespace Cert.KernelIdeal.Operands

open Cert.KernelIdeal Cert.KernelIdeal.Gen Cert.Streams
open Idealize.ShloMosaic Idealize.ShloMosaic.ValueIdx

/-! ## Each read at an entry -/

/-- Entry (p, q, k) of the rows is x at the source row of (p, q). -/
theorem rows_at (X : S32x2048x5.Idx → EReal) (p : Fin 32) (q : Fin 2048) (k : Fin 5) :
    rowsOp X (ix3 p q k) = X (ix3 (srcBatch p q) (srcStep p q) k) := by
  unfold rowsOp
  refine Eq.trans (shapeCast_apply _ shapeCasts_S2048x32x5_S32x2048x5 (ix3 p q k) (ix3 (srcStep p q) (srcBatch p q) k) ?_) ?_
  · rewrite [Shape.rowMajor_val_three, Shape.rowMajor_val_three]
    show ((p.val * 2048 + q.val) / 32 * 32 + (p.val * 2048 + q.val) % 32) * 5 + k.val = (p.val * 2048 + q.val) * 5 + k.val
    omega
  · exact transpose_apply [1, 0, 2] X transposes_S32x2048x5_S2048x32x5_1_0_2 _ (ix3 (srcBatch p q) (srcStep p q) k) (fun b => match b with
      | ⟨0, _⟩ => rfl
      | ⟨1, _⟩ => rfl
      | ⟨2, _⟩ => rfl)

/-- A column read back. -/
theorem col_at (y : S128.Idx → EReal) (e : Fin 128) : col y (ix2 e (0 : Fin 1)) = y (ix1 e) :=
  broadcastInDim_apply _ bcast_S128_S128x1_0 y _ (ix1 e) (fun a => match a with
    | ⟨0, _⟩ => by show e.val = if (128 : Nat) = 1 then 0 else e.val; rw [if_neg (by decide)])

/-- Entry (e, s) of five columns side by side is entry e of column s. -/
theorem cols_at (y0 y1 y2 y3 y4 : S128.Idx → EReal) (e : Fin 128) (s : Fin 5) :
    cols y0 y1 y2 y3 y4 (ix2 e s) = (![y0, y1, y2, y3, y4] s) (ix1 e) := by
  unfold cols
  have off : ∀ (b : Fin 2), b.cast (rfl : S128x1.rank = S128x5.rank) ≠ (1 : Fin 2) → ∀ t : Fin 5,
      ((ix2 e (0 : Fin 1) : S128x1.Idx) b).val = ((ix2 e t : S128x5.Idx) (b.cast rfl)).val := fun b hb t => by
    match b with
    | ⟨0, _⟩ => rfl
    | ⟨1, _⟩ => exact absurd rfl hb
  match s with
  | ⟨0, _⟩ => exact Eq.trans (concatenate_apply_piece (t := S128x5) (1 : Fin 2) _ _ _ 0 (by simp) S128x1 _ rfl rfl 0 rfl (ix2 e (0 : Fin 1)) (fun b hb => off b hb _) rfl) (col_at y0 e)
  | ⟨1, _⟩ => exact Eq.trans (concatenate_apply_piece (t := S128x5) (1 : Fin 2) _ _ _ 1 (by simp) S128x1 _ rfl rfl 1 rfl (ix2 e (0 : Fin 1)) (fun b hb => off b hb _) rfl) (col_at y1 e)
  | ⟨2, _⟩ => exact Eq.trans (concatenate_apply_piece (t := S128x5) (1 : Fin 2) _ _ _ 2 (by simp) S128x1 _ rfl rfl 2 rfl (ix2 e (0 : Fin 1)) (fun b hb => off b hb _) rfl) (col_at y2 e)
  | ⟨3, _⟩ => exact Eq.trans (concatenate_apply_piece (t := S128x5) (1 : Fin 2) _ _ _ 3 (by simp) S128x1 _ rfl rfl 3 rfl (ix2 e (0 : Fin 1)) (fun b hb => off b hb _) rfl) (col_at y3 e)
  | ⟨4, _⟩ => exact Eq.trans (concatenate_apply_piece (t := S128x5) (1 : Fin 2) _ _ _ 4 (by simp) S128x1 _ rfl rfl 4 rfl (ix2 e (0 : Fin 1)) (fun b hb => off b hb _) rfl) (col_at y4 e)

/-- Entry (k, s) of the identity is the identity word read as a float. -/
theorem eye_at (k s : Fin 5) : eye (ix2 k s) = (FloatOps.uitofp (F := Ideal) .f32 (eyeWord k s) : EReal) := rfl

/-- Entry (k, c) of the selection matrix. -/
theorem sel_at (w1 w3 w5 w7 : S128.Idx → EReal) (k : Fin 5) (c : Fin 640) :
    selOp w1 w3 w5 w7 (ix2 k c)
      = weightOf w1 w3 w5 w7 k (ix1 (feature c)) * (FloatOps.uitofp (F := Ideal) .f32 (eyeWord k (stream c)) : EReal) := by
  unfold selOp
  refine Eq.trans (shapeCast_apply _ shapeCasts_S5x128x5_S5x640 (ix2 k c) (ix3 k (feature c) (stream c)) ?_) ?_
  · rewrite [Shape.rowMajor_val_three, Shape.rowMajor_val_two]
    show (k.val * 128 + c.val / 5) * 5 + c.val % 5 = k.val * 640 + c.val
    omega
  rw [mulf_apply]
  refine congrArg₂ (· * ·) ?_ ?_
  · -- the weight: stretched along the stream axis, given a unit axis, transposed, a column
    refine Eq.trans (broadcastInDim_apply _ bcast_S5x128x1_S5x128x5_0_1_2 _ _ (ix3 k (feature c) (0 : Fin 1)) (fun a => match a with
      | ⟨0, _⟩ => by show k.val = if (5 : Nat) = 1 then 0 else k.val; rw [if_neg (by decide)]
      | ⟨1, _⟩ => by show (feature c).val = if (128 : Nat) = 1 then 0 else (feature c).val; rw [if_neg (by decide)]
      | ⟨2, _⟩ => by show 0 = if (1 : Nat) = 1 then 0 else (stream c).val; rw [if_pos rfl])) ?_
    refine Eq.trans (broadcastInDim_apply _ bcast_S5x128_S5x128x1_0_1 _ _ (ix2 k (feature c)) (fun a => match a with
      | ⟨0, _⟩ => by show k.val = if (5 : Nat) = 1 then 0 else k.val; rw [if_neg (by decide)]
      | ⟨1, _⟩ => by show (feature c).val = if (128 : Nat) = 1 then 0 else (feature c).val; rw [if_neg (by decide)])) ?_
    refine Eq.trans (transpose_apply [1, 0] _ transposes_S128x5_S5x128_1_0 _ (ix2 (feature c) k) (fun b => match b with
      | ⟨0, _⟩ => rfl
      | ⟨1, _⟩ => rfl)) ?_
    exact cols_at w1 w3 w3 w5 w7 (feature c) k
  · -- the identity: stretched along the feature axis
    refine Eq.trans (broadcastInDim_apply _ bcast_S5x1x5_S5x128x5_0_1_2 _ _ (ix3 k (0 : Fin 1) (stream c)) (fun a => match a with
      | ⟨0, _⟩ => by show k.val = if (5 : Nat) = 1 then 0 else k.val; rw [if_neg (by decide)]
      | ⟨1, _⟩ => by show 0 = if (1 : Nat) = 1 then 0 else (feature c).val; rw [if_pos rfl]
      | ⟨2, _⟩ => by show (stream c).val = if (5 : Nat) = 1 then 0 else (stream c).val; rw [if_neg (by decide)])) ?_
    refine Eq.trans (broadcastInDim_apply _ bcast_S5x5_S5x1x5_0_2 _ _ (ix2 k (stream c)) (fun a => match a with
      | ⟨0, _⟩ => by show k.val = if (5 : Nat) = 1 then 0 else k.val; rw [if_neg (by decide)]
      | ⟨1, _⟩ => by show (stream c).val = if (5 : Nat) = 1 then 0 else (stream c).val; rw [if_neg (by decide)])) ?_
    exact eye_at k (stream c)

/-- Row s of the embedding table, as a vector, read at e. -/
theorem embRow_at (E : S5x128.Idx → EReal) (s : Fin 5) (h : S5x128.Slices ![s.val, 0] S1x128) (e : Fin 128) :
    embRow E ![s.val, 0] h (ix1 e) = E (ix2 s e) := by
  unfold embRow
  refine Eq.trans (shapeCast_apply _ shapeCasts_S1x128_S128 (ix1 e) (ix2 (0 : Fin 1) e) ?_) ?_
  · rewrite [Shape.rowMajor_val_two, Shape.rowMajor_val_one]
    show 0 * 128 + e.val = e.val
    omega
  · exact extractStridedSlice_apply ![s.val, 0] E h (ix2 (0 : Fin 1) e) (ix2 s e) (fun a => match a with
      | ⟨0, _⟩ => by show s.val = s.val + 0; omega
      | ⟨1, _⟩ => by show e.val = 0 + e.val; omega)

/-- Entry (0, c) of the bias row. -/
theorem bias_at (b2 b4 b6 b8 : S128.Idx → EReal) (E : S5x128.Idx → EReal) (c : Fin 640) :
    biasOp b2 b4 b6 b8 E (ix2 (0 : Fin 1) c) = biasOf b2 b4 b6 b8 (stream c) (ix1 (feature c)) + E (ix2 (stream c) (feature c)) := by
  unfold biasOp
  refine Eq.trans (shapeCast_apply _ shapeCasts_S128x5_S1x640 (ix2 (0 : Fin 1) c) (ix2 (feature c) (stream c)) ?_) ?_
  · rewrite [Shape.rowMajor_val_two, Shape.rowMajor_val_two]
    show c.val / 5 * 5 + c.val % 5 = 0 * 640 + c.val
    omega
  rw [cols_at]
  unfold biasOf
  generalize stream c = s
  match s with
  | ⟨0, _⟩ => exact congrArg (b2 (ix1 (feature c)) + ·) (embRow_at E ⟨0, by decide⟩ _ (feature c))
  | ⟨1, _⟩ => exact congrArg (b4 (ix1 (feature c)) + ·) (embRow_at E ⟨1, by decide⟩ _ (feature c))
  | ⟨2, _⟩ => exact congrArg (b4 (ix1 (feature c)) + ·) (embRow_at E ⟨2, by decide⟩ _ (feature c))
  | ⟨3, _⟩ => exact congrArg (b6 (ix1 (feature c)) + ·) (embRow_at E ⟨3, by decide⟩ _ (feature c))
  | ⟨4, _⟩ => exact congrArg (b8 (ix1 (feature c)) + ·) (embRow_at E ⟨4, by decide⟩ _ (feature c))

end Cert.KernelIdeal.Operands

end
-- ==== Proof.Payload.lean ====
/-
  The body's arithmetic at one entry, over the extended reals.

  From the three blocks it read — rows [1, 2048, 5], the selection matrix [5, 640], the bias row [1, 640] — the body
  stores a block [1, 2048, 640] whose entry (0, q, c) is the matrix product's entry (q, c), a sum of five products
  (the accumulator it adds into is the zero array), plus the bias row's entry c.
-/
import proofs.«109671_j11227044512450_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The product's dimension numbers: rows of the left operand against columns of the right, one contracted axis of
    extent 5. -/
abbrev D : DotDims S2048x5 S5x640 S2048x640 := dot_S2048x5_S5x640_S2048x640_1_0_0_1_n_n

theorem lhs_row (j : S2048x640.Idx) (k : D.contr.Idx) : (D.lhsIdx j k 0 : ℕ) = j 0 := by
  simp [DotDims.lhsIdx, D, dot_S2048x5_S5x640_S2048x640_1_0_0_1_n_n]; rfl
theorem lhs_col (j : S2048x640.Idx) (k : D.contr.Idx) : (D.lhsIdx j k 1 : ℕ) = k ⟨0, by decide⟩ := by
  simp [DotDims.lhsIdx, D, dot_S2048x5_S5x640_S2048x640_1_0_0_1_n_n]; rfl
theorem rhs_row (j : S2048x640.Idx) (k : D.contr.Idx) : (D.rhsIdx j k 0 : ℕ) = k ⟨0, by decide⟩ := by
  simp [DotDims.rhsIdx, D, dot_S2048x5_S5x640_S2048x640_1_0_0_1_n_n]; rfl
theorem rhs_col (j : S2048x640.Idx) (k : D.contr.Idx) : (D.rhsIdx j k 1 : ℕ) = j 1 := by
  simp [DotDims.rhsIdx, D, dot_S2048x5_S5x640_S2048x640_1_0_0_1_n_n]; rfl

/-- The contracted axis's indices are `Fin 5`. -/
def contr5 : D.contr.Idx ≃ Fin 5 := contrEquiv1 D 5 rfl rfl

theorem contr5_symm_val (k : Fin 5) : ((contr5.symm k) ⟨0, by decide⟩ : ℕ) = k.val :=
  contrEquiv1_symm_val D 5 rfl rfl k

/-- The product into the zero array, at entry (q, c): the sum over the five columns. -/
theorem product_at (lhs : FVec Ideal S2048x5 .f32) (rhs : FVec Ideal S5x640 .f32) (q : Fin 2048) (c : Fin 640) :
    FloatOps.matmul D (some .fp32) lhs rhs (constant S2048x640 .f32 0x00000000#32) (ix2 q c)
      = ∑ k : Fin 5, lhs (ix2 q k) * rhs (ix2 k c) := by
  rw [Ideal.matmul_constant_zero_apply, ← Equiv.sum_comp contr5.symm]
  refine Finset.sum_congr rfl fun k _ => ?_
  congr 1
  · refine congrArg lhs (funext fun a => Fin.ext ?_)
    match a with
    | ⟨0, _⟩ => exact lhs_row _ _
    | ⟨1, _⟩ => exact (lhs_col _ _).trans (contr5_symm_val k)
  · refine congrArg rhs (funext fun a => Fin.ext ?_)
    match a with
    | ⟨0, _⟩ => exact (rhs_row _ _).trans (contr5_symm_val k)
    | ⟨1, _⟩ => exact rhs_col _ _

/-- What the body stores, at entry (0, q, c). -/
theorem payload_at (x0 : Vec Ideal S1x2048x5 .f32) (x1 : Vec Ideal S5x640 .f32) (x2 : Vec Ideal S1x640 .f32) (q : Fin 2048) (c : Fin 640) :
    k0_pay1 (F := Ideal) x0 x1 x2 (ix3 (0 : Fin 1) q c)
      = (∑ k : Fin 5, x0 (ix3 (0 : Fin 1) q k) * x1 (ix2 k c)) + x2 (ix2 (0 : Fin 1) c) := by
  unfold k0_pay1
  refine Eq.trans (shapeCast_apply _ shapeCasts_S2048x640_S1x2048x640 (ix3 (0 : Fin 1) q c) (ix2 q c) ?_) ?_
  · rewrite [Shape.rowMajor_val_two, Shape.rowMajor_val_three]
    show q.val * 640 + c.val = (0 * 2048 + q.val) * 640 + c.val
    omega
  show FloatOps.matmul (F := Ideal) D (some .fp32) (shapeCast S2048x5 x0 shapeCasts_S1x2048x5_S2048x5) (shapeCast S5x640 x1 shapeCasts_S5x640_S5x640)
        (constant (F := Ideal) S2048x640 .f32 0x00000000#32) (ix2 q c)
      + broadcastTo S2048x640 (shapeCast S1x640 x2 shapeCasts_S1x640_S1x640) broadcasts_S1x640_S2048x640 (ix2 q c) = _
  congr 1
  · refine (product_at _ _ q c).trans (Finset.sum_congr rfl fun k _ => ?_)
    congr 1
    · refine shapeCast_apply x0 shapeCasts_S1x2048x5_S2048x5 (ix2 q k) (ix3 (0 : Fin 1) q k) ?_
      rewrite [Shape.rowMajor_val_three, Shape.rowMajor_val_two]
      show (0 * 2048 + q.val) * 5 + k.val = q.val * 5 + k.val
      omega
    · exact congrFun (shapeCast_self x1 shapeCasts_S5x640_S5x640) (ix2 k c)
  · refine Eq.trans (broadcastTo_apply _ broadcasts_S1x640_S2048x640 (ix2 q c) (ix2 (0 : Fin 1) c) (fun a => match a with
      | ⟨0, _⟩ => by show 0 = if (1 : Nat) = 1 then 0 else _; rw [if_pos rfl]
      | ⟨1, _⟩ => by show c.val = if (640 : Nat) = 1 then 0 else c.val; rw [if_neg (by decide)])) ?_
    exact congrFun (shapeCast_self x2 shapeCasts_S1x640_S1x640) (ix2 (0 : Fin 1) c)

end Cert.KernelIdeal.Payload

end
-- ==== Proof.KernelResult.lean ====
/-
  The kernel's result array is the specified result.

  Point t of the grid reads block t of the re-ordered rows and the whole selection matrix and bias row, and writes
  block t of the result: rows t · 2048 … t · 2048 + 2047 of the 32 × 2048 × 640 array, one group of 2048 rows. Its entry
  (q, c) is  Σ_k rows[t, q, k] · sel[k, c] + bias[0, c];  with the three arrays read at an entry this is

      Σ_k x[b, m, k] · (W_k[e] · δ(k, s)) + (B_s[e] + emb[s, e])        (s = c mod 5, e = c / 5, (b, m) the source row of (t, q)),

  the sum keeps its term k = s alone, and the two additions regroup: the specified entry. The 32 blocks are written
  back one per point and cover the array, so the array ends holding the specified result.
-/
import proofs.«109671_j11227044512450_2_alg».proof.Proof.KernelIdealRegion
import proofs.«109671_j11227044512450_2_alg».proof.Proof.OperandsFound
import proofs.«109671_j11227044512450_2_alg».proof.Proof.OperandsAt
import proofs.«109671_j11227044512450_2_alg».proof.Proof.Payload
import proofs.«109671_j11227044512450_2_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Region Cert.KernelIdeal.Operands Cert.KernelIdeal.Payload Cert.Streams
open Idealize.ShloMosaic Idealize.ShloMosaic.ValueIdx Idealize.ShloMosaic.TcCoe Idealize.SL.Sem
open Idealize.ShloMosaic.Pipeline (Dat)

/-! ## One entry of one block, from the three operand arrays -/

/-- The product of the rows with the selection matrix plus the bias row, at entry (p, q, c), is the specified entry:
    the sum over the five columns keeps column `c mod 5`, and `(x · W + B) + emb = x · W + (B + emb)`. -/
theorem block_entry (X : S32x2048x5.Idx → EReal) (w1 b2 w3 b4 w5 b6 w7 b8 : S128.Idx → EReal) (E : S5x128.Idx → EReal)
    (p : Fin 32) (q : Fin 2048) (cc : Fin 640) :
    (∑ k : Fin 5, rowsOp X (ix3 p q k) * selOp w1 w3 w5 w7 (ix2 k cc)) + biasOp b2 b4 b6 b8 E (ix2 (0 : Fin 1) cc)
      = entry X w1 b2 w3 b4 w5 b6 w7 b8 E p q cc := by
  simp only [rows_at, sel_at, bias_at]
  rw [sum_masked (fun k => X (ix3 (srcBatch p q) (srcStep p q) k)) (fun k => weightOf w1 w3 w5 w7 k (ix1 (feature cc)))
    (fun k => (FloatOps.uitofp (F := Ideal) .f32 (eyeWord k (stream cc)) : EReal)) (stream cc) (fun k => eye_entry k (stream cc))]
  unfold entry
  rw [add_assoc]

/-! ## What each point writes back -/

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The specified result of core `c`'s launch contents. -/
abbrev expected (c : Dev nD) : S32x2048x640.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The printed index maps over the grid: the rows' and the result's blocks move with the point along the first axis,
    the selection matrix and the bias row are one block each. -/
theorem where_blocks : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point `t` writes back block `t` of the specified result. -/
theorem written_back (c : Dev nD) (t : Fin cfg0.N) :
    (regionData m 0 c).flushed 3 t = ((cfg0.win 3).blk t).view.read (Elt Ideal) (expected m c) := by
  show (cfg0.win 3).cut (grid0.coords t) ((regionData m 0 c).after 3 t) = _
  rw [left3]
  unfold stored
  rw [View.canon_unit_zero zeros3]
  simp only [View.ld_unit_zero (S := S1x2048x5) zeros3, View.ld_unit_zero (S := S5x640) zeros2, View.ld_unit_zero (S := S1x640) zeros2]
  obtain ⟨r0, r1, r2, s0, s1, v0, v1, o0, o1, o2⟩ := where_blocks t
  have ht : t.val < 32 := lt_of_lt_of_eq t.isLt N_0
  funext (y : S1x2048x640.Idx)
  obtain ⟨q, cc, rfl⟩ : ∃ (q : Fin 2048) (cc : Fin 640), y = ix3 (0 : Fin 1) q cc :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  have hq : q.val < 2048 := q.isLt
  have hc : cc.val < 640 := cc.isLt
  -- the body's payload at this entry, each block read where its window puts it
  refine Eq.trans (payload_at (blockAt m c 0 t) (blockAt m c 1 t) (blockAt m c 2 t) q cc) ?_
  have hrow : ∀ k : Fin 5, blockAt m c 0 t (ix3 (0 : Fin 1) q k)
      = rowsOp (m ((c : Thread nD τ).loc main_arg0)) (ix3 (⟨t.val, ht⟩ : Fin 32) q k) := fun k => by
    rw [← rows_found m c]
    show atEntry m c main_v42 (((cfg0.win 0).blk t).view.emb (ix3 (0 : Fin 1) q k)) = _
    refine congrArg (atEntry m c main_v42) (funext fun a => Fin.ext ?_)
    match a with
    | ⟨0, _⟩ => show win0_0.index t (0 : Fin 3) * 1 + 1 * 0 = t.val; omega
    | ⟨1, _⟩ => show win0_0.index t (1 : Fin 3) * 2048 + 1 * q.val = q.val; omega
    | ⟨2, _⟩ => show win0_0.index t (2 : Fin 3) * 5 + 1 * k.val = k.val; omega
  have hsel : ∀ k : Fin 5, blockAt m c 1 t (ix2 k cc)
      = selOp (m ((c : Thread nD τ).loc main_arg1)) (m ((c : Thread nD τ).loc main_arg3)) (m ((c : Thread nD τ).loc main_arg5))
          (m ((c : Thread nD τ).loc main_arg7)) (ix2 k cc) := fun k => by
    rw [← sel_found m c]
    show atEntry m c main_v33 (((cfg0.win 1).blk t).view.emb (ix2 k cc)) = _
    refine congrArg (atEntry m c main_v33) (funext fun a => Fin.ext ?_)
    match a with
    | ⟨0, _⟩ => show win0_1.index t (0 : Fin 2) * 5 + 1 * k.val = k.val; omega
    | ⟨1, _⟩ => show win0_1.index t (1 : Fin 2) * 640 + 1 * cc.val = cc.val; omega
  have hbias : blockAt m c 2 t (ix2 (0 : Fin 1) cc)
      = biasOp (m ((c : Thread nD τ).loc main_arg2)) (m ((c : Thread nD τ).loc main_arg4)) (m ((c : Thread nD τ).loc main_arg6))
          (m ((c : Thread nD τ).loc main_arg8)) (m ((c : Thread nD τ).loc main_arg9)) (ix2 (0 : Fin 1) cc) := by
    rw [← bias_found m c]
    show atEntry m c main_v40 (((cfg0.win 2).blk t).view.emb (ix2 (0 : Fin 1) cc)) = _
    refine congrArg (atEntry m c main_v40) (funext fun a => Fin.ext ?_)
    match a with
    | ⟨0, _⟩ => show win0_2.index t (0 : Fin 2) * 1 + 1 * 0 = 0; omega
    | ⟨1, _⟩ => show win0_2.index t (1 : Fin 2) * 640 + 1 * cc.val = cc.val; omega
  simp only [hrow, hsel, hbias]
  rw [block_entry]
  -- the same entry of the specified result, at the block's place in the array
  show _ = expected m c (((cfg0.win 3).blk t).view.emb (ix3 (0 : Fin 1) q cc))
  have hplace : ((cfg0.win 3).blk t).view.emb (ix3 (0 : Fin 1) q cc) = ix3 (⟨t.val, ht⟩ : Fin 32) q cc := by
    funext a; apply Fin.ext
    match a with
    | ⟨0, _⟩ => show win0_3.index t (0 : Fin 3) * 1 + 1 * 0 = t.val; omega
    | ⟨1, _⟩ => show win0_3.index t (1 : Fin 3) * 2048 + 1 * q.val = q.val; omega
    | ⟨2, _⟩ => show win0_3.index t (2 : Fin 3) * 640 + 1 * cc.val = cc.val; omega
  rw [hplace]
  rfl

/-! ## The blocks cover the array -/

/-- An entry of the array is in point `t`'s block iff each coordinate is in the block's range on its axis. -/
theorem in_block (t : Fin cfg0.N) (i : S32x2048x640.Idx) :
    i ∈ ((cfg0.win 3).blk t).view.set ↔ ∀ a : Fin 3, win0_3.index t a * S1x2048x640.size a ≤ (i a).val
      ∧ (i a).val < win0_3.index t a * S1x2048x640.size a + S1x2048x640.size a := by
  show i ∈ ((View.whole main_v43).slice (win0_3.rect t)).set ↔ _
  rw [View.set_slice_whole, Rect.mem_set_unit]
  exact Iff.rfl

/-- Every entry is written back by the point its first coordinate names. -/
theorem every_entry_written (i : S32x2048x640.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 640 := (i 2).isLt
  let t : Fin cfg0.N := ⟨(i 0).val, by rw [show cfg0.N = 32 from N_0]; exact h0⟩
  obtain ⟨-, -, -, -, -, -, -, o0, o1, o2⟩ := where_blocks t
  refine ⟨t, flush0_3 t, ?_⟩
  rw [in_block]
  intro a
  match a with
  | ⟨0, _⟩ => show win0_3.index t (0 : Fin 3) * 1 ≤ (i 0).val ∧ (i 0).val < win0_3.index t (0 : Fin 3) * 1 + 1
              rw [o0]; show (i 0).val * 1 ≤ (i 0).val ∧ (i 0).val < (i 0).val * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 640 ≤ (i 2).val ∧ (i 2).val < win0_3.index t (2 : Fin 3) * 640 + 640; omega

/-- The result array after the run. -/
theorem final (c : Dev nD) : (regionData m 0 c).arrAt 3 cfg0.N = expected m c :=
  (regionData m 0 c).arrAt_eq_of_cover 3 (expected m c) (fun t _ => written_back m c t) every_entry_written

/-! ## The run, with the result named -/

/-- Every execution terminates with the result array at the specified result of the launch contents and the ten
    argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v43) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 3).trans (final m c), args_kept m r h c⟩) (run_region m ρ)

end Cert.KernelIdeal.Final

end
-- ==== Proof.RefValue.lean ====
/-
  The reference program computes the specified result.

  Its last three operations join the five streams on a new last axis, swap the first two axes and regroup the
  65536 × 640 entries into 32 × 2048 × 640. Reading the final array at (p, q, c): the regrouping sends it to flat
  position (p · 2048 + q) · 640 + c, whose coordinates in [2048, 32, 128, 5] are m = r / 32, b = r mod 32 (r = p · 2048 + q),
  e = c / 5, s = c mod 5; the swap reads the joined array at (b, m, e, s); the join takes entry (b, m, e) of stream s; and
  stream s there is x[b, m, s] · W_s[e] + B_s[e] + emb[s, e], each operand a broadcast read back at its one coordinate.
-/
import proofs.«109671_j11227044512450_2_alg».proof.Proof.Gen.ReferenceIdeal.Read
import proofs.«109671_j11227044512450_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Streams
open Idealize.ShloMosaic Idealize.ShloMosaic.ValueIdx

/-- One stream's entry, with each operand read at the index its broadcasts and slices lead back to. -/
theorem stream_form (X : S32x2048x5.Idx → EReal) (w b : S128.Idx → EReal) (E : S5x128.Idx → EReal)
    {a a' : S32x2048x5.Idx} {f f' g g' : S128.Idx} {d d' : S5x128.Idx} (ha : a = a') (hf : f = f') (hg : g = g') (hd : d = d') :
    FloatOps.addf (F := Ideal) (φ := .f32) (FloatOps.addf (F := Ideal) (φ := .f32) (FloatOps.mulf (F := Ideal) (φ := .f32) (X a) (w f)) (b g)) (E d) = X a' * w f' + b g' + E d' := by
  subst ha hf hg hd; rfl

set_option maxHeartbeats 1600000 in
/-- The reference's result array is `result` of its ten arguments. -/
theorem reference_is_result (X : S32x2048x5.Idx → EReal) (w1 b2 w3 b4 w5 b6 w7 b8 : S128.Idx → EReal) (E : S5x128.Idx → EReal) :
    val_main_v72 (F := Ideal) X w1 b2 w3 b4 w5 b6 w7 b8 E = result X w1 b2 w3 b4 w5 b6 w7 b8 E := by
  funext i
  rw [val_main_v72_apply, val_main_v71_apply]
  unfold val_main_v70
  have h0 : (i 0).val < 32 := (i 0).isLt
  have h1 : (i 1).val < 2048 := (i 1).isLt
  have h2 : (i 2).val < 640 := (i 2).isLt
  generalize hj : idx_main_v71 (idx_main_v72 i) = j
  -- the four coordinates the regrouping and the swap lead to
  have hj0 : j 0 = srcBatch (i 0) (i 1) := by
    subst hj; apply Fin.ext
    show (((i 0).val * 2048 + (i 1).val) * 640 + (i 2).val) / 640 % 32 = ((i 0).val * 2048 + (i 1).val) % 32
    omega
  have hj1 : j 1 = srcStep (i 0) (i 1) := by
    subst hj; apply Fin.ext
    show (((i 0).val * 2048 + (i 1).val) * 640 + (i 2).val) / 20480 = ((i 0).val * 2048 + (i 1).val) / 32
    omega
  have hj2 : j 2 = feature (i 2) := by
    subst hj; apply Fin.ext
    show (((i 0).val * 2048 + (i 1).val) * 640 + (i 2).val) / 5 % 128 = (i 2).val / 5
    omega
  have hj3 : (j 3).val = (i 2).val % 5 := by
    subst hj
    show (((i 0).val * 2048 + (i 1).val) * 640 + (i 2).val) % 5 = (i 2).val % 5
    omega
  have hlt : (i 2).val % 5 < 5 := Nat.mod_lt _ (by decide)
  rcases (by omega : (j 3).val = 0 ∨ (j 3).val = 1 ∨ (j 3).val = 2 ∨ (j 3).val = 3 ∨ (j 3).val = 4) with h | h | h | h | h
  · -- column of stream 0
    have hs : stream (i 2) = (⟨0, by decide⟩ : Fin 5) := Fin.ext (by show (i 2).val % 5 = 0; omega)
    refine Eq.trans (concatenate_apply_piece (3 : Fin 4) _ _ j 0 (by simp) S32x2048x128x1 _ rfl rfl 0 rfl (ix4 (j 0) (j 1) (j 2) (0 : Fin 1))
      (fun b hb => by
        match b with
        | ⟨0, _⟩ => rfl
        | ⟨1, _⟩ => rfl
        | ⟨2, _⟩ => rfl
        | ⟨3, _⟩ => exact absurd rfl hb) (by show 0 + 0 = (j 3).val; omega)) ?_
    simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v71_apply, val_main_v72_apply]
    show _ = entry X w1 b2 w3 b4 w5 b6 w7 b8 E (i 0) (i 1) (i 2)
    unfold entry
    rw [hs]
    show _ = X (ix3 (srcBatch (i 0) (i 1)) (srcStep (i 0) (i 1)) (⟨0, by decide⟩ : Fin 5)) * w1 (ix1 (feature (i 2)))
      + b2 (ix1 (feature (i 2))) + E (ix2 (⟨0, by decide⟩ : Fin 5) (feature (i 2)))
    refine stream_form X w1 b2 E ?_ ?_ ?_ ?_
    · funext d; apply Fin.ext
      match d with
      | ⟨0, _⟩ => exact congrArg Fin.val hj0
      | ⟨1, _⟩ => exact congrArg Fin.val hj1
      | ⟨2, _⟩ => rfl
    · funext d; apply Fin.ext
      match d with
      | ⟨0, _⟩ => exact congrArg Fin.val hj2
    · funext d; apply Fin.ext
      match d with
      | ⟨0, _⟩ => exact congrArg Fin.val hj2
    · funext d; apply Fin.ext
      match d with
      | ⟨0, _⟩ => rfl
      | ⟨1, _⟩ =>
        show (j 2).val % 128 = (feature (i 2)).val
        rw [← hj2]; exact Nat.mod_eq_of_lt (j 2).isLt
  · -- column of stream 1
    have hs : stream (i 2) = (⟨1, by decide⟩ : Fin 5) := Fin.ext (by show (i 2).val % 5 = 1; omega)
    refine Eq.trans (concatenate_apply_piece (3 : Fin 4) _ _ j 1 (by simp) S32x2048x128x1 _ rfl rfl 1 rfl (ix4 (j 0) (j 1) (j 2) (0 : Fin 1))
      (fun b hb => by
        match b with
        | ⟨0, _⟩ => rfl
        | ⟨1, _⟩ => rfl
        | ⟨2, _⟩ => rfl
        | ⟨3, _⟩ => exact absurd rfl hb) (by show 1 + 0 = (j 3).val; omega)) ?_
    simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v71_apply, val_main_v72_apply]
    show _ = entry X w1 b2 w3 b4 w5 b6 w7 b8 E (i 0) (i 1) (i 2)
    unfold entry
    rw [hs]
    show _ = X (ix3 (srcBatch (i 0) (i 1)) (srcStep (i 0) (i 1)) (⟨1, by decide⟩ : Fin 5)) * w3 (ix1 (feature (i 2)))
      + b4 (ix1 (feature (i 2))) + E (ix2 (⟨1, by decide⟩ : Fin 5) (feature (i 2)))
    refine stream_form X w3 b4 E ?_ ?_ ?_ ?_
    · funext d; apply Fin.ext
      match d with
      | ⟨0, _⟩ => exact congrArg Fin.val hj0
      | ⟨1, _⟩ => exact congrArg Fin.val hj1
      | ⟨2, _⟩ => rfl
    · funext d; apply Fin.ext
      match d with
      | ⟨0, _⟩ => exact congrArg Fin.val hj2
    · funext d; apply Fin.ext
      match d with
      | ⟨0, _⟩ => exact congrArg Fin.val hj2
    · funext d; apply Fin.ext
      match d with
      | ⟨0, _⟩ => rfl
      | ⟨1, _⟩ =>
        show (j 2).val % 128 = (feature (i 2)).val
        rw [← hj2]; exact Nat.mod_eq_of_lt (j 2).isLt
  · -- column of stream 2
    have hs : stream (i 2) = (⟨2, by decide⟩ : Fin 5) := Fin.ext (by show (i 2).val % 5 = 2; omega)
    refine Eq.trans (concatenate_apply_piece (3 : Fin 4) _ _ j 2 (by simp) S32x2048x128x1 _ rfl rfl 2 rfl (ix4 (j 0) (j 1) (j 2) (0 : Fin 1))
      (fun b hb => by
        match b with
        | ⟨0, _⟩ => rfl
        | ⟨1, _⟩ => rfl
        | ⟨2, _⟩ => rfl
        | ⟨3, _⟩ => exact absurd rfl hb) (by show 2 + 0 = (j 3).val; omega)) ?_
    simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v71_apply, val_main_v72_apply]
    show _ = entry X w1 b2 w3 b4 w5 b6 w7 b8 E (i 0) (i 1) (i 2)
    unfold entry
    rw [hs]
    show _ = X (ix3 (srcBatch (i 0) (i 1)) (srcStep (i 0) (i 1)) (⟨2, by decide⟩ : Fin 5)) * w3 (ix1 (feature (i 2)))
      + b4 (ix1 (feature (i 2))) + E (ix2 (⟨2, by decide⟩ : Fin 5) (feature (i 2)))
    refine stream_form X w3 b4 E ?_ ?_ ?_ ?_
    · funext d; apply Fin.ext
      match d with
      | ⟨0, _⟩ => exact congrArg Fin.val hj0
      | ⟨1, _⟩ => exact congrArg Fin.val hj1
      | ⟨2, _⟩ => rfl
    · funext d; apply Fin.ext
      match d with
      | ⟨0, _⟩ => exact congrArg Fin.val hj2
    · funext d; apply Fin.ext
      match d with
      | ⟨0, _⟩ => exact congrArg Fin.val hj2
    · funext d; apply Fin.ext
      match d with
      | ⟨0, _⟩ => rfl
      | ⟨1, _⟩ =>
        show (j 2).val % 128 = (feature (i 2)).val
        rw [← hj2]; exact Nat.mod_eq_of_lt (j 2).isLt
  · -- column of stream 3
    have hs : stream (i 2) = (⟨3, by decide⟩ : Fin 5) := Fin.ext (by show (i 2).val % 5 = 3; omega)
    refine Eq.trans (concatenate_apply_piece (3 : Fin 4) _ _ j 3 (by simp) S32x2048x128x1 _ rfl rfl 3 rfl (ix4 (j 0) (j 1) (j 2) (0 : Fin 1))
      (fun b hb => by
        match b with
        | ⟨0, _⟩ => rfl
        | ⟨1, _⟩ => rfl
        | ⟨2, _⟩ => rfl
        | ⟨3, _⟩ => exact absurd rfl hb) (by show 3 + 0 = (j 3).val; omega)) ?_
    simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v71_apply, val_main_v72_apply]
    show _ = entry X w1 b2 w3 b4 w5 b6 w7 b8 E (i 0) (i 1) (i 2)
    unfold entry
    rw [hs]
    show _ = X (ix3 (srcBatch (i 0) (i 1)) (srcStep (i 0) (i 1)) (⟨3, by decide⟩ : Fin 5)) * w5 (ix1 (feature (i 2)))
      + b6 (ix1 (feature (i 2))) + E (ix2 (⟨3, by decide⟩ : Fin 5) (feature (i 2)))
    refine stream_form X w5 b6 E ?_ ?_ ?_ ?_
    · funext d; apply Fin.ext
      match d with
      | ⟨0, _⟩ => exact congrArg Fin.val hj0
      | ⟨1, _⟩ => exact congrArg Fin.val hj1
      | ⟨2, _⟩ => rfl
    · funext d; apply Fin.ext
      match d with
      | ⟨0, _⟩ => exact congrArg Fin.val hj2
    · funext d; apply Fin.ext
      match d with
      | ⟨0, _⟩ => exact congrArg Fin.val hj2
    · funext d; apply Fin.ext
      match d with
      | ⟨0, _⟩ => rfl
      | ⟨1, _⟩ =>
        show (j 2).val % 128 = (feature (i 2)).val
        rw [← hj2]; exact Nat.mod_eq_of_lt (j 2).isLt
  · -- column of stream 4
    have hs : stream (i 2) = (⟨4, by decide⟩ : Fin 5) := Fin.ext (by show (i 2).val % 5 = 4; omega)
    refine Eq.trans (concatenate_apply_piece (3 : Fin 4) _ _ j 4 (by simp) S32x2048x128x1 _ rfl rfl 4 rfl (ix4 (j 0) (j 1) (j 2) (0 : Fin 1))
      (fun b hb => by
        match b with
        | ⟨0, _⟩ => rfl
        | ⟨1, _⟩ => rfl
        | ⟨2, _⟩ => rfl
        | ⟨3, _⟩ => exact absurd rfl hb) (by show 4 + 0 = (j 3).val; omega)) ?_
    simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v71_apply, val_main_v72_apply]
    show _ = entry X w1 b2 w3 b4 w5 b6 w7 b8 E (i 0) (i 1) (i 2)
    unfold entry
    rw [hs]
    show _ = X (ix3 (srcBatch (i 0) (i 1)) (srcStep (i 0) (i 1)) (⟨4, by decide⟩ : Fin 5)) * w7 (ix1 (feature (i 2)))
      + b8 (ix1 (feature (i 2))) + E (ix2 (⟨4, by decide⟩ : Fin 5) (feature (i 2)))
    refine stream_form X w7 b8 E ?_ ?_ ?_ ?_
    · funext d; apply Fin.ext
      match d with
      | ⟨0, _⟩ => exact congrArg Fin.val hj0
      | ⟨1, _⟩ => exact congrArg Fin.val hj1
      | ⟨2, _⟩ => rfl
    · funext d; apply Fin.ext
      match d with
      | ⟨0, _⟩ => exact congrArg Fin.val hj2
    · funext d; apply Fin.ext
      match d with
      | ⟨0, _⟩ => exact congrArg Fin.val hj2
    · funext d; apply Fin.ext
      match d with
      | ⟨0, _⟩ => rfl
      | ⟨1, _⟩ =>
        show (j 2).val % 128 = (feature (i 2)).val
        rw [← hj2]; exact Nat.mod_eq_of_lt (j 2).isLt

end Cert.ReferenceIdeal.RefValue

end
-- ==== Proof.lean ====
/-
  A kernel that writes five interleaved streams against its reference, over the extended reals.

  Both programs compute, from x : [32, 2048, 5], four weight vectors and four bias vectors of 128 entries and an
  embedding table [5, 128], the array [32, 2048, 640] whose row (p, q) is source row number r = p · 2048 + q of x
  (step m = r / 32, batch b = r mod 32) and whose column c = 5 e + s is

      x[b, m, s] · W_s[e] + B_s[e] + emb[s, e].

  The reference computes each stream by broadcasts, joins the five on a last axis, swaps the first two axes and
  regroups. The kernel regroups the rows of x first, builds a 5 × 640 matrix holding W_k[e] · δ(k, s) and a bias row
  holding B_s[e] + emb[s, e], and on a grid of 32 points multiplies 2048 rows by the matrix and adds the bias row.
  The two agree entry by entry because a product with zero is zero on the extended reals — so the sum over the five
  columns keeps one term — and addition is associative; neither law needs the inputs to be finite, so the
  precondition is not opened.

  Each kernel program terminates without fault and leaves its arguments unchanged: the host operations write only
  their own results, the region's four windows are results too, and the body at each point reads its three input
  blocks and fills its output block. The word-level program and its idealization are the same text (no operation was
  rewritten), so that argument is made once and read at both instances.
-/
import proofs.«109671_j11227044512450_2_alg».proof.Defs
import proofs.«109671_j11227044512450_2_alg».proof.Proof.Gen.Kernel
import proofs.«109671_j11227044512450_2_alg».proof.Proof.Gen.KernelIdeal
import proofs.«109671_j11227044512450_2_alg».proof.Proof.Gen.ReferenceIdeal
import proofs.«109671_j11227044512450_2_alg».proof.Proof.Gen.Pre_finite_inputs
import proofs.«109671_j11227044512450_2_alg».proof.Proof.Gen.ReferenceIdeal.Read
import proofs.«109671_j11227044512450_2_alg».proof.Proof.KernelRegion
import proofs.«109671_j11227044512450_2_alg».proof.Proof.KernelIdealRegion
import proofs.«109671_j11227044512450_2_alg».proof.Proof.KernelResult
import proofs.«109671_j11227044512450_2_alg».proof.Proof.RefValue
import Idealize.ShloMosaic.Adequacy
import Idealize.ShloMosaic.Init

noncomputable section

namespace Cert.Proof

open Idealize.ShloMosaic Idealize.SL.Sem

/-- The word-level kernel runs to its end and keeps its arguments. -/
theorem frame_kernel : Cert.frame_Kernel := fun m ρ _ => Cert.Kernel.Region.frame m ρ

/-- So does its idealization. -/
theorem frame_kernel_ideal : Cert.frame_KernelIdeal := fun m ρ _ => Cert.KernelIdeal.Region.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the arguments both programs end with the specified result of those arguments. -/
theorem algebraic : Cert.algebraic_KernelIdeal_ReferenceIdeal := by
  intro m ρ m' ρ' _ hagree
  refine ⟨fun c => Cert.KernelIdeal.Final.expected m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, Cert.ReferenceIdeal.RefValue.reference_is_result]
  obtain ⟨a0, a1, a2, a3, a4, a5, a6, a7, a8, a9⟩ := hagree c
  rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
